-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S32000x2048 : Shape := ⟨2, ![32000, 2048]⟩
abbrev S4x32000x2048 : Shape := ⟨3, ![4, 32000, 2048]⟩
abbrev S512 : Shape := ⟨1, ![512]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x32000x2048 : S_.BroadcastsInDim S4x32000x2048 (![] : Fin 0 → Fin S4x32000x2048.rank)
  reducesTo_S4x32000x2048_S_d0_1_2 : S4x32000x2048.ReducesTo [0, 1, 2] S_

variable [Facts]

def fn {F : FTy → Type} [FloatOps F] (main_arg0 : FVec F S512x2048 .f32) (main_arg1 : FVec F S32000x2048 .f32) (main_arg2 : FVec F S4x32000x2048 .f32) (main_arg3 : IVec S512 32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S4x32000x2048 .f32 := Host.absf main_arg2
  let main_cst_2 : FVec F S_ .f32 := constant S_ .f32 0x7F800000#32
  let main_v10 : FVec F S4x32000x2048 .f32 := broadcastInDim S4x32000x2048 ![] bcast_S_S4x32000x2048 main_cst_2
  let main_v11 : IVec S4x32000x2048 1 := cmpf .olt main_v9 main_v10
  let main_c_3 : IVec S_ 1 := constantI S_ 1 1#1
  let main_v12 : IVec S_ 1 := (fun x v => Host.reduce IntOp.andi x v reducesTo_S4x32000x2048_S_d0_1_2 h_S_) main_v11 main_c_3
  let main_v13 : IVec S_ 1 := andi main_v8 main_v12
  main_v13
-- ==== Kernel.lean ====
abbrev S512x2048 : Shape := ⟨2, ![512, 2048]⟩
abbrev S32000x2048 : Shape := ⟨2, ![32000, 2048]⟩
abbrev S4x32000x2048 : Shape := ⟨3, ![4, 32000, 2048]⟩
abbrev S512 : Shape := ⟨1, ![512]⟩
abbrev S_ : Shape := ⟨0, ![]⟩
abbrev S512x1 : Shape := ⟨2, ![512, 1]⟩
abbrev S1x512x2048 : Shape := ⟨3, ![1, 512, 2048]⟩
abbrev S5x512x2048 : Shape := ⟨3, ![5, 512, 2048]⟩
abbrev S512x32000 : Shape := ⟨2, ![512, 32000]⟩
abbrev S640x2048 : Shape := ⟨2, ![640, 2048]⟩
abbrev S1x640x2048 : Shape := ⟨3, ![1, 640, 2048]⟩
abbrev S512x640 : Shape := ⟨2, ![512, 640]⟩

abbrev nBuf : Space → Nat
  | .hbm => 44
  | .vmem => 8
  | .smem => 0
  | _ => 0

abbrev bufTy : (tb : Table) → Fin (tcTables nBuf tb) → BufTy
  | .hbm, ⟨0, _⟩ => ⟨S512x2048, .f32⟩
  | .hbm, ⟨1, _⟩ => ⟨S32000x2048, .f32⟩
  | .hbm, ⟨2, _⟩ => ⟨S4x32000x2048, .f32⟩
  | .hbm, ⟨3, _⟩ => ⟨S512, .i32⟩
  | .hbm, ⟨4, _⟩ => ⟨S512x2048, .bf16⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S512x1, .i1⟩
  | .hbm, ⟨9, _⟩ => ⟨S_, .bf16⟩
  | .hbm, ⟨10, _⟩ => ⟨S512x2048, .i1⟩
  | .hbm, ⟨11, _⟩ => ⟨S512x2048, .bf16⟩
  | .hbm, ⟨12, _⟩ => ⟨S512x2048, .bf16⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512x1, .i1⟩
  | .hbm, ⟨17, _⟩ => ⟨S_, .bf16⟩
  | .hbm, ⟨18, _⟩ => ⟨S512x2048, .i1⟩
  | .hbm, ⟨19, _⟩ => ⟨S512x2048, .bf16⟩
  | .hbm, ⟨20, _⟩ => ⟨S512x2048, .bf16⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512x1, .i1⟩
  | .hbm, ⟨25, _⟩ => ⟨S_, .bf16⟩
  | .hbm, ⟨26, _⟩ => ⟨S512x2048, .i1⟩
  | .hbm, ⟨27, _⟩ => ⟨S512x2048, .bf16⟩
  | .hbm, ⟨28, _⟩ => ⟨S512x2048, .bf16⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512x1, .i1⟩
  | .hbm, ⟨33, _⟩ => ⟨S_, .bf16⟩
  | .hbm, ⟨34, _⟩ => ⟨S512x2048, .i1⟩
  | .hbm, ⟨35, _⟩ => ⟨S512x2048, .bf16⟩
  | .hbm, ⟨36, _⟩ => ⟨S512x2048, .bf16⟩
  | .hbm, ⟨37, _⟩ => ⟨S1x512x2048, .bf16⟩
  | .hbm, ⟨38, _⟩ => ⟨S1x512x2048, .bf16⟩
  | .hbm, ⟨39, _⟩ => ⟨S1x512x2048, .bf16⟩
  | .hbm, ⟨40, _⟩ => ⟨S1x512x2048, .bf16⟩
  | .hbm, ⟨41, _⟩ => ⟨S1x512x2048, .bf16⟩
  | .hbm, ⟨42, _⟩ => ⟨S5x512x2048, .bf16⟩
  | .hbm, ⟨43, _⟩ => ⟨S512x32000, .f32⟩
  | .local _ .vmem, ⟨0, _⟩ => ⟨S5x512x2048, .bf16⟩
  | .local _ .vmem, ⟨1, _⟩ => ⟨S640x2048, .f32⟩
  | .local _ .vmem, ⟨2, _⟩ => ⟨S640x2048, .f32⟩
  | .local _ .vmem, ⟨3, _⟩ => ⟨S1x640x2048, .f32⟩
  | .local _ .vmem, ⟨4, _⟩ => ⟨S1x640x2048, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call2_v0 : Ref sig .tc := ⟨.hbm, 26, rfl⟩
abbrev main_call2_v1 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_call3_v0 : Ref sig .tc := ⟨.hbm, 34, rfl⟩
abbrev main_call3_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![50, 5], ![false, false]⟩

def k0_off1 (i : grid0.Coords) : Fin 3 → Nat :=
  let arg1 : BitVec 32 := BitVec.ofNat 32 (i 1).val
  let v0 : Index := Scalar.indexCast arg1
  let c0 : Index := 0#32
  let c0_0 : Index := 0#32
  ![v0.toNat, 0, 0]
def k0_cond3 (i : grid0.Coords) : BitVec 1 :=
  let arg1 : BitVec 32 := BitVec.ofNat 32 (i 1).val
  let c4_i32 : BitVec 32 := 4#32
  let v9 : BitVec 1 := Scalar.cmpi .eq arg1 c4_i32
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S5x512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  bcast_S_S512 : S_.BroadcastsInDim S512 (![] : Fin 0 → Fin S512.rank)
  bcast_S512_S512x1_0 : S512.BroadcastsInDim S512x1 (![0] : Fin 1 → Fin S512x1.rank)
  bcast_S512x1_S512x2048_0_1 : S512x1.BroadcastsInDim S512x2048 (![0, 1] : Fin 2 → Fin S512x2048.rank)
  bcast_S_S512x2048 : S_.BroadcastsInDim S512x2048 (![] : Fin 0 → Fin S512x2048.rank)
  bcast_S512x2048_S1x512x2048_1_2 : S512x2048.BroadcastsInDim S1x512x2048 (![1, 2] : Fin 2 → Fin S1x512x2048.rank)
  concatenates_S1x512x2048_S1x512x2048_S1x512x2048_S1x512x2048_S1x512x2048_S5x512x2048_d0 : Shape.Concatenates [S1x512x2048, S1x512x2048, S1x512x2048, S1x512x2048, S1x512x2048] S5x512x2048 0
  h_S1x512x2048 : 0 < S1x512x2048.numel
  shapeCasts_S1x512x2048_S512x2048 : S1x512x2048.ShapeCasts S512x2048
  inb_S640x2048_S640x2048_0_0 : ∀ a, (![0, 0] : Fin 2 → Nat) a + S640x2048.size a ≤ S640x2048.size a
  h_S640x2048 : 0 < S640x2048.numel
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S1x640x2048_S1x640x2048_0_0_0 : ∀ a, (![0, 0, 0] : Fin 3 → Nat) a + S1x640x2048.size a ≤ S1x640x2048.size a
  h_S1x640x2048 : 0 < S1x640x2048.numel
  shapeCasts_S1x640x2048_S640x2048 : S1x640x2048.ShapeCasts S640x2048
  dot_S512x2048_S640x2048_S512x640_1_1_0_0_n_n_wf : DotDims.WF S512x2048 S640x2048 S512x640 [1] [1] [0] [0] [] []
  hrank0 : 0 < grid0.rank
  k0_off1_inb : ∀ i : grid0.Coords, ∀ a, (k0_off1 i) a + S1x512x2048.size a ≤ S5x512x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5x512x2048.size a ≤ S5x512x2048.size a
  hwx0_0 : ∀ i : grid0.Coords, EltTy.bits .bf16 = 32 ∨ (Rect.block (s := S5x512x2048) S5x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .f32 = 32 ∨ (Rect.block (s := S32000x2048) S640x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x640x2048.size a ≤ S4x32000x2048.size a
  hwx0_2 : ∀ i : grid0.Coords, EltTy.bits .f32 = 32 ∨ (Rect.block (s := S4x32000x2048) S1x640x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S512x32000.size a
  hwx0_3 : ∀ i : grid0.Coords, EltTy.bits .f32 = 32 ∨ (Rect.block (s := S512x32000) S512x640.size (cc0_transform_3 i) (hinb0_3 i)).WholeWords (EltTy.packing .f32)

variable [Facts₀]

def dot_S512x2048_S640x2048_S512x640_1_1_0_0_n_n : DotDims S512x2048 S640x2048 S512x640 where
  lhsContracting := [1]
  rhsContracting := [1]
  lhsNonContracting := [0]
  rhsNonContracting := [0]
  lhsBatch := []
  rhsBatch := []
  wf := dot_S512x2048_S640x2048_S512x640_1_1_0_0_n_n_wf

abbrev win0_0 : Pipeline.Window sig grid0 :=
  Pipeline.Window.ofSpec (Memref.whole main_v22) S5x512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x640x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S512x2048 : Shape := ⟨2, ![512, 2048]⟩
abbrev S32000x2048 : Shape := ⟨2, ![32000, 2048]⟩
abbrev S4x32000x2048 : Shape := ⟨3, ![4, 32000, 2048]⟩
abbrev S512 : Shape := ⟨1, ![512]⟩
abbrev S2048x32000 : Shape := ⟨2, ![2048, 32000]⟩
abbrev S512x32000 : Shape := ⟨2, ![512, 32000]⟩
abbrev S_ : Shape := ⟨0, ![]⟩
abbrev S512x1 : Shape := ⟨2, ![512, 1]⟩
abbrev S1x32000x2048 : Shape := ⟨3, ![1, 32000, 2048]⟩

abbrev nBuf : Space → Nat
  | .hbm => 62
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S32000x2048, .f32⟩
  | .hbm, ⟨2, _⟩ => ⟨S4x32000x2048, .f32⟩
  | .hbm, ⟨3, _⟩ => ⟨S512, .i32⟩
  | .hbm, ⟨4, _⟩ => ⟨S2048x32000, .f32⟩
  | .hbm, ⟨5, _⟩ => ⟨S512x32000, .f32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S512x1, .i1⟩
  | .hbm, ⟨10, _⟩ => ⟨S_, .f32⟩
  | .hbm, ⟨11, _⟩ => ⟨S_, .f32⟩
  | .hbm, ⟨12, _⟩ => ⟨S512x2048, .i1⟩
  | .hbm, ⟨13, _⟩ => ⟨S512x2048, .f32⟩
  | .hbm, ⟨14, _⟩ => ⟨S512x2048, .f32⟩
  | .hbm, ⟨15, _⟩ => ⟨S1x32000x2048, .f32⟩
  | .hbm, ⟨16, _⟩ => ⟨S32000x2048, .f32⟩
  | .hbm, ⟨17, _⟩ => ⟨S2048x32000, .f32⟩
  | .hbm, ⟨18, _⟩ => ⟨S512x32000, .f32⟩
  | .hbm, ⟨19, _⟩ => ⟨S512x32000, .f32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512x1, .i1⟩
  | .hbm, ⟨24, _⟩ => ⟨S_, .f32⟩
  | .hbm, ⟨25, _⟩ => ⟨S_, .f32⟩
  | .hbm, ⟨26, _⟩ => ⟨S512x2048, .i1⟩
  | .hbm, ⟨27, _⟩ => ⟨S512x2048, .f32⟩
  | .hbm, ⟨28, _⟩ => ⟨S512x2048, .f32⟩
  | .hbm, ⟨29, _⟩ => ⟨S1x32000x2048, .f32⟩
  | .hbm, ⟨30, _⟩ => ⟨S32000x2048, .f32⟩
  | .hbm, ⟨31, _⟩ => ⟨S2048x32000, .f32⟩
  | .hbm, ⟨32, _⟩ => ⟨S512x32000, .f32⟩
  | .hbm, ⟨33, _⟩ => ⟨S512x32000, .f32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512x1, .i1⟩
  | .hbm, ⟨38, _⟩ => ⟨S_, .f32⟩
  | .hbm, ⟨39, _⟩ => ⟨S_, .f32⟩
  | .hbm, ⟨40, _⟩ => ⟨S512x2048, .i1⟩
  | .hbm, ⟨41, _⟩ => ⟨S512x2048, .f32⟩
  | .hbm, ⟨42, _⟩ => ⟨S512x2048, .f32⟩
  | .hbm, ⟨43, _⟩ => ⟨S1x32000x2048, .f32⟩
  | .hbm, ⟨44, _⟩ => ⟨S32000x2048, .f32⟩
  | .hbm, ⟨45, _⟩ => ⟨S2048x32000, .f32⟩
  | .hbm, ⟨46, _⟩ => ⟨S512x32000, .f32⟩
  | .hbm, ⟨47, _⟩ => ⟨S512x32000, .f32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S512x1, .i1⟩
  | .hbm, ⟨52, _⟩ => ⟨S_, .f32⟩
  | .hbm, ⟨53, _⟩ => ⟨S_, .f32⟩
  | .hbm, ⟨54, _⟩ => ⟨S512x2048, .i1⟩
  | .hbm, ⟨55, _⟩ => ⟨S512x2048, .f32⟩
  | .hbm, ⟨56, _⟩ => ⟨S512x2048, .f32⟩
  | .hbm, ⟨57, _⟩ => ⟨S1x32000x2048, .f32⟩
  | .hbm, ⟨58, _⟩ => ⟨S32000x2048, .f32⟩
  | .hbm, ⟨59, _⟩ => ⟨S2048x32000, .f32⟩
  | .hbm, ⟨60, _⟩ => ⟨S512x32000, .f32⟩
  | .hbm, ⟨61, _⟩ => ⟨S512x32000, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  transposes_S32000x2048_S2048x32000_1_0 : S32000x2048.Transposes [1, 0] S2048x32000
  bcast_S_S512 : S_.BroadcastsInDim S512 (![] : Fin 0 → Fin S512.rank)
  bcast_S512_S512x1_0 : S512.BroadcastsInDim S512x1 (![0] : Fin 1 → Fin S512x1.rank)
  bcast_S512x1_S512x2048_0_1 : S512x1.BroadcastsInDim S512x2048 (![0, 1] : Fin 2 → Fin S512x2048.rank)
  bcast_S_S512x2048 : S_.BroadcastsInDim S512x2048 (![] : Fin 0 → Fin S512x2048.rank)
  slices_S4x32000x2048_S1x32000x2048_0_0_0 : S4x32000x2048.Slices ![0, 0, 0] S1x32000x2048
  shapeCasts_S1x32000x2048_S32000x2048 : S1x32000x2048.ShapeCasts S32000x2048
  slices_S4x32000x2048_S1x32000x2048_1_0_0 : S4x32000x2048.Slices ![1, 0, 0] S1x32000x2048
  slices_S4x32000x2048_S1x32000x2048_2_0_0 : S4x32000x2048.Slices ![2, 0, 0] S1x32000x2048
  slices_S4x32000x2048_S1x32000x2048_3_0_0 : S4x32000x2048.Slices ![3, 0, 0] S1x32000x2048
  dot_S512x2048_S2048x32000_S512x32000_1_0_0_1_n_n_wf : DotDims.WF S512x2048 S2048x32000 S512x32000 [1] [0] [0] [1] [] []

variable [Facts₀]

def dot_S512x2048_S2048x32000_S512x32000_1_0_0_1_n_n : DotDims S512x2048 S2048x32000 S512x32000 where
  lhsContracting := [1]
  rhsContracting := [0]
  lhsNonContracting := [0]
  rhsNonContracting := [1]
  lhsBatch := []
  rhsBatch := []
  wf := dot_S512x2048_S2048x32000_S512x32000_1_0_0_1_n_n_wf

class Facts : Prop extends Facts₀ where

variable [Facts]
-- ==== Proof.Kernel.Entry.lean ====
/-
  The state in which the pipelined region is entered, and the bookkeeping every point of its grid shares.

  Before the region the host lines build the five-slot array H : [5, 512, 2048] — slot 0 the hidden states, slot d + 1
  the hidden states with every row whose adapter index differs from d replaced by zero — and write nothing the region
  reads besides. The region walks a 50 × 5 grid: point t = 5·v + d handles vocabulary tile v and slot d. Three
  conditions on d steer the body: d = 0 (start the accumulator), d > 0 (add to it), d = 4 (copy it out).
  Here: the buffers' contents at the region's entry, that the four arguments are as launched there, each window's
  block at a point, the three conditions in closed form over t mod 5, and where the output window is idle.
-/
import proofs.«147714_j15977278341385_2_alg».proof.Proof.Gen.Kernel.Launch
import proofs.«147714_j15977278341385_2_alg».proof.Proof.Gen.Kernel.Skeleton
import proofs.«147714_j15977278341385_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The nine stretches of host lines before the region, in order. -/
abbrev prefixOps : List (List (HloOp τ sig (Elt F))) :=
  [hostOps0, hostOps0_1, hostOps0_2, hostOps0_3, hostOps0_4, hostOps0_5, hostOps0_6, hostOps0_7, hostOps0_8]

/-- What core `c`'s buffers hold when the region is entered: the launch contents after the host lines. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main is the host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host line writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.TRef.unary, StableHlo.TRef.ternary, StableHlo.TRef.of, Finset.mem_singleton]
    repeat' apply And.intro
    all_goals exact StableHlo.devRef_ne_of_ne (by decide)))
/-- No host line writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.TRef.unary, StableHlo.TRef.ternary, StableHlo.TRef.of, Finset.mem_singleton]
    repeat' apply And.intro
    all_goals exact StableHlo.devRef_ne_of_ne (by decide)))
/-- No host line writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.TRef.unary, StableHlo.TRef.ternary, StableHlo.TRef.of, Finset.mem_singleton]
    repeat' apply And.intro
    all_goals exact StableHlo.devRef_ne_of_ne (by decide)))
/-- No host line writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.TRef.unary, StableHlo.TRef.ternary, StableHlo.TRef.of, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (when it is not fetched the
    block index has not moved), for any proof data over the entry contents whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (when it is not fetched the
    block index has not moved), for any proof data over the entry contents whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (when it is not fetched the
    block index has not moved), for any proof data over the entry contents whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- From a run that ends with every array of the pipeline at what the proof data compute and every other buffer at its
    entry contents: the four arguments end as launched (two are input windows' arrays, two are read by host lines only). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c)⟩) h

/-! ## The body's three conditions -/

/-- "d = 0", as the body computes it from the grid coordinates. -/
abbrev isFirst (i : grid0.Coords) : Prop := (Scalar.cmpi .ne (Scalar.extui (Scalar.cmpi .eq (BitVec.ofNat 32 (i 1).val) 0#32)) 0#32) = 1#1
/-- "d > 0". -/
abbrev isLater (i : grid0.Coords) : Prop := (Scalar.cmpi .ne (Scalar.extui (Scalar.cmpi .sgt (BitVec.ofNat 32 (i 1).val) 0#32)) 0#32) = 1#1
/-- "d = 4". -/
abbrev isLast (i : grid0.Coords) : Prop := k0_cond3 i = 1#1

theorem isFirst_iff : ∀ t : Fin cfg0.N, isFirst (grid0.coords t) ↔ t.val % 5 = 0 :=
  (by decide +kernel : ∀ t : Fin grid0.N, isFirst (grid0.coords t) ↔ t.val % 5 = 0)
theorem isLater_iff : ∀ t : Fin cfg0.N, isLater (grid0.coords t) ↔ ¬ t.val % 5 = 0 :=
  (by decide +kernel : ∀ t : Fin grid0.N, isLater (grid0.coords t) ↔ ¬ t.val % 5 = 0)
theorem isLast_iff : ∀ t : Fin cfg0.N, isLast (grid0.coords t) ↔ t.val % 5 = 4 :=
  (by decide +kernel : ∀ t : Fin grid0.N, isLast (grid0.coords t) ↔ t.val % 5 = 4)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from d = 4 the body stores nothing into the output window: it is idle there, -/
theorem idle3 : ∀ t : Fin cfg0.N, ¬ isLast (grid0.coords t) → cfg0.idle 3 (grid0.coords t) = true := by decide +kernel
/-- and the pipeline does not write its block back there. -/
theorem noFlush3 : ∀ t : Fin cfg0.N, ¬ isLast (grid0.coords t) → (cfg0.win 3).flush t = false := by decide +kernel
/-- At d = 4 it is live. -/
theorem live3 : ∀ t : Fin cfg0.N, isLast (grid0.coords t) → cfg0.idle 3 (grid0.coords t) = false := by decide +kernel

/-! ## The staging memrefs at a point, the accumulator, the invariant -/

/-- One staging buffer of the output window, through which its contents are stated. -/
abbrev VO : View sig .tc .vmem S512x640 .f32 := (Memref.whole cc0_stg3_0 : Memref sig .tc .vmem S512x640 .f32).view
abbrev ms0 (t : Fin cfg0.N) : Memref sig .tc .vmem S5x512x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S640x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x640x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x640 .f32 := win0_3.stage (cfg0.slots t 3)
abbrev hs3 (t : Fin cfg0.N) : (ms3 t).IsWhole := hstage0_3 ((cfg0.slots t 3).cast nbuf0_3)
/-- The accumulator: a scratch buffer of the kernel's own, kept from point to point. -/
abbrev accM : Memref sig .tc .vmem S512x640 .f32 := Memref.whole cc0_scratch0
abbrev VS : View sig .tc .vmem S512x640 .f32 := accM.view

/-- The region's plain invariant spelled out: the accumulator owned at some contents, the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.Kernel.CaseFirst.lean ====
/-
  The body at a point with d = 0. Only the first branch runs: it reads slot 0 of H and the embedding tile and stores their
  product (contracted over the hidden axis) into the accumulator, whatever the accumulator held; the output window is
  left as found. The triple is obtained by running the body symbolically; the list of stores the accumulator ends with
  is whatever that run finds.
-/
import proofs.«147714_j15977278341385_2_alg».proof.Proof.Kernel.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with at a point with d = 0, with the body's triple there: inputs at their blocks and
    the output buffer at any contents are handed back untouched; the accumulator, taken at anything, comes back with
    the pieces written. -/
noncomputable def runFirst (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : isFirst i) (hc1 : ¬ isLater i) (hc2 : ¬ isLast i)
    (x0 : Vec F S5x512x2048 .bf16) (x1 : Vec F S640x2048 .f32) (x2 : Vec F S1x640x2048 .f32) :
    Σ' (L3 : List (View.Piece (Elt F) S512x640 .f32)), { LS : List (View.Piece (Elt F) S512x640 .f32) //
      ∀ (xi3 : Vec F S512x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.Kernel.CaseMiddle.lean ====
/-
  The body at a point with 0 < d < 4. Only the second branch runs: it reads slot d of H and the weight tile of adapter
  d − 1, and stores the accumulator plus their product back into the accumulator; the output window is left as found.
-/
import proofs.«147714_j15977278341385_2_alg».proof.Proof.Kernel.CaseFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with at a point with 0 < d < 4, with the body's triple there: the accumulator is taken
    at the contents `xs` the point before left. -/
noncomputable def runMiddle (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : ¬ isLast i)
    (x0 : Vec F S5x512x2048 .bf16) (x1 : Vec F S640x2048 .f32) (x2 : Vec F S1x640x2048 .f32) (xs : Vec F S512x640 .f32) :
    Σ' (L3 : List (View.Piece (Elt F) S512x640 .f32)), { LS : List (View.Piece (Elt F) S512x640 .f32) //
      ∀ (xi3 : Vec F S512x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.Kernel.CaseLast.lean ====
/-
  The body at a point with d = 4. The second branch adds the last product to the accumulator, then the third branch
  copies the accumulator into the output window's buffer, which the pipeline writes back after this point.
-/
import proofs.«147714_j15977278341385_2_alg».proof.Proof.Kernel.CaseMiddle

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the output buffer and the accumulator end with at a point with d = 4, with the body's triple there: the
    output buffer is taken at anything and comes back with its pieces written. -/
noncomputable def runLast (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) :
    Σ' (L3 : List (View.Piece (Elt F) S512x640 .f32)), { LS : List (View.Piece (Elt F) S512x640 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.Kernel.Frame.lean ====
/-
  The run of the whole program, point by point.

  At point t = 5·v + d the accumulator holds, after the body: for d = 0 the product of slot 0 of H with embedding tile v;
  for d > 0 what the point before left plus the product of slot d with tile v of adapter d − 1's weights. At d = 4 the
  output window's buffer is a copy of it, and the pipeline writes that block back; at the other points the output
  window is idle. Stated here without opening the arithmetic: each case's contents are the stores its symbolic run
  found, read back; the contents after point n are defined by recursion on n, the invariant between points says the
  accumulator holds them, and the body obligation is the three case runs. From the run: the four arguments end as
  launched.
-/
import proofs.«147714_j15977278341385_2_alg».proof.Proof.Kernel.CaseLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

variable {m}

/-- The accumulator after a point with d = 0: the stores found there, read back. -/
def accFirst (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : isFirst i) (hc1 : ¬ isLater i) (hc2 : ¬ isLast i)
    (x0 : Vec F S5x512x2048 .bf16) (x1 : Vec F S640x2048 .f32) (x2 : Vec F S1x640x2048 .f32) : Vec F S512x640 .f32 :=
  VS.read (Elt F) (VS.writes (Elt F) VS.junk (runFirst c i arg2 harg2 arg3 harg3 arg4 harg4 arg5 harg5 arg6 harg6 hc0 hc1 hc2 x0 x1 x2).2.1)
/-- Those stores tile the accumulator, so they cover it. -/
theorem coverFirst (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : isFirst i) (hc1 : ¬ isLater i) (hc2 : ¬ isLast i)
    (x0 : Vec F S5x512x2048 .bf16) (x1 : Vec F S640x2048 .f32) (x2 : Vec F S1x640x2048 .f32) (y : S512x640.Idx) :
    ∃ pc ∈ (runFirst c i arg2 harg2 arg3 harg3 arg4 harg4 arg5 harg5 arg6 harg6 hc0 hc1 hc2 x0 x1 x2).2.1, y ∈ pc.1.set :=
  View.cover_of_tiledL (runFirst c i arg2 harg2 arg3 harg3 arg4 harg4 arg5 harg5 arg6 harg6 hc0 hc1 hc2 x0 x1 x2).2.1 S512x640.size (by sl_kernel_rfl) y

/-- The accumulator after a point with 0 < d < 4, over what the point before left (`xs`). -/
def accMiddle (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : ¬ isLast i)
    (x0 : Vec F S5x512x2048 .bf16) (x1 : Vec F S640x2048 .f32) (x2 : Vec F S1x640x2048 .f32) (xs : Vec F S512x640 .f32) : Vec F S512x640 .f32 :=
  VS.read (Elt F) (VS.writes (Elt F) VS.junk (runMiddle c i arg2 harg2 arg3 harg3 arg4 harg4 arg5 harg5 arg6 harg6 hc0 hc1 hc2 x0 x1 x2 xs).2.1)
theorem coverMiddle (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : ¬ isLast i)
    (x0 : Vec F S5x512x2048 .bf16) (x1 : Vec F S640x2048 .f32) (x2 : Vec F S1x640x2048 .f32) (xs : Vec F S512x640 .f32) (y : S512x640.Idx) :
    ∃ pc ∈ (runMiddle c i arg2 harg2 arg3 harg3 arg4 harg4 arg5 harg5 arg6 harg6 hc0 hc1 hc2 x0 x1 x2 xs).2.1, y ∈ pc.1.set :=
  View.cover_of_tiledL (runMiddle c i arg2 harg2 arg3 harg3 arg4 harg4 arg5 harg5 arg6 harg6 hc0 hc1 hc2 x0 x1 x2 xs).2.1 S512x640.size (by sl_kernel_rfl) y

/-- The accumulator after a point with d = 4, -/
def accLast (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) : Vec F S512x640 .f32 :=
  VS.read (Elt F) (VS.writes (Elt F) VS.junk (runLast c i arg2 harg2 arg3 harg3 arg4 harg4 arg5 harg5 arg6 harg6 hc0 hc1 hc2 x0 x1 x2 xs).2.1)
theorem coverAccLast (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) (y : S512x640.Idx) :
    ∃ pc ∈ (runLast c i arg2 harg2 arg3 harg3 arg4 harg4 arg5 harg5 arg6 harg6 hc0 hc1 hc2 x0 x1 x2 xs).2.1, y ∈ pc.1.set :=
  View.cover_of_tiledL (runLast c i arg2 harg2 arg3 harg3 arg4 harg4 arg5 harg5 arg6 harg6 hc0 hc1 hc2 x0 x1 x2 xs).2.1 S512x640.size (by sl_kernel_rfl) y
/-- and the output window's buffer there. -/
def outLast (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) : Vec F S512x640 .f32 :=
  VO.read (Elt F) (VO.writes (Elt F) VO.junk (runLast c i arg2 harg2 arg3 harg3 arg4 harg4 arg5 harg5 arg6 harg6 hc0 hc1 hc2 x0 x1 x2 xs).1)
theorem coverOutLast (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) (y : S512x640.Idx) :
    ∃ pc ∈ (runLast c i arg2 harg2 arg3 harg3 arg4 harg4 arg5 harg5 arg6 harg6 hc0 hc1 hc2 x0 x1 x2 xs).1, y ∈ pc.1.set :=
  View.cover_of_tiledL (runLast c i arg2 harg2 arg3 harg3 arg4 harg4 arg5 harg5 arg6 harg6 hc0 hc1 hc2 x0 x1 x2 xs).1 S512x640.size (by sl_kernel_rfl) y

/-- What stands for the output window's buffer at a point where it is idle: nothing consults it. -/
def idleOut : Vec F S512x640 .f32 := VO.read (Elt F) VO.junk

/-! ## Which case a point is in -/

theorem firstH (t : Fin cfg0.N) (h0 : t.val % 5 = 0) :
    isFirst (grid0.coords t) ∧ ¬ isLater (grid0.coords t) ∧ ¬ isLast (grid0.coords t) :=
  ⟨(isFirst_iff t).mpr h0, fun h => (isLater_iff t).mp h h0, fun h => by have := (isLast_iff t).mp h; omega⟩
theorem middleH (t : Fin cfg0.N) (h0 : ¬ t.val % 5 = 0) (h4 : ¬ t.val % 5 = 4) :
    ¬ isFirst (grid0.coords t) ∧ isLater (grid0.coords t) ∧ ¬ isLast (grid0.coords t) :=
  ⟨fun h => h0 ((isFirst_iff t).mp h), (isLater_iff t).mpr h0, fun h => h4 ((isLast_iff t).mp h)⟩
theorem lastH (t : Fin cfg0.N) (h4 : t.val % 5 = 4) :
    ¬ isFirst (grid0.coords t) ∧ isLater (grid0.coords t) ∧ isLast (grid0.coords t) :=
  ⟨fun h => by have := (isFirst_iff t).mp h; omega, (isLater_iff t).mpr (by omega), (isLast_iff t).mpr h4⟩

variable (m)

/-- Each case's contents at point `t`: the case run at the point's staging memrefs and input blocks. -/
def accFirstAt (c : Dev nD) (t : Fin cfg0.N) (h0 : t.val % 5 = 0) : Vec F S512x640 .f32 :=
  accFirst c (grid0.coords t) (ms0 t) (hs0 t) (ms1 t) (hs1 t) (ms2 t) (hs2 t) (ms3 t) (hs3 t) accM (Memref.isWhole_whole _) (firstH t h0).1 (firstH t h0).2.1 (firstH t h0).2.2 (iblk m c 0 t) (iblk m c 1 t) (iblk m c 2 t)
def accMiddleAt (c : Dev nD) (t : Fin cfg0.N) (h0 : ¬ t.val % 5 = 0) (h4 : ¬ t.val % 5 = 4) (xs : Vec F S512x640 .f32) : Vec F S512x640 .f32 :=
  accMiddle c (grid0.coords t) (ms0 t) (hs0 t) (ms1 t) (hs1 t) (ms2 t) (hs2 t) (ms3 t) (hs3 t) accM (Memref.isWhole_whole _) (middleH t h0 h4).1 (middleH t h0 h4).2.1 (middleH t h0 h4).2.2 (iblk m c 0 t) (iblk m c 1 t) (iblk m c 2 t) xs
def accLastAt (c : Dev nD) (t : Fin cfg0.N) (h4 : t.val % 5 = 4) (xs : Vec F S512x640 .f32) : Vec F S512x640 .f32 :=
  accLast c (grid0.coords t) (ms0 t) (hs0 t) (ms1 t) (hs1 t) (ms2 t) (hs2 t) (ms3 t) (hs3 t) accM (Memref.isWhole_whole _) (lastH t h4).1 (lastH t h4).2.1 (lastH t h4).2.2 (iblk m c 0 t) (iblk m c 1 t) (iblk m c 2 t) xs
def outLastAt (c : Dev nD) (t : Fin cfg0.N) (h4 : t.val % 5 = 4) (xs : Vec F S512x640 .f32) : Vec F S512x640 .f32 :=
  outLast c (grid0.coords t) (ms0 t) (hs0 t) (ms1 t) (hs1 t) (ms2 t) (hs2 t) (ms3 t) (hs3 t) accM (Memref.isWhole_whole _) (lastH t h4).1 (lastH t h4).2.1 (lastH t h4).2.2 (iblk m c 0 t) (iblk m c 1 t) (iblk m c 2 t) xs

/-! ## The contents after each point -/

/-- The output window's buffer and the accumulator after the body at position `n`, by recursion on `n`: a point with
    d = 0 starts the accumulator afresh, any other continues from what position `n − 1` left. -/
def stateAt (c : Dev nD) : (n : ℕ) → n < cfg0.N → Vec F S512x640 .f32 × Vec F S512x640 .f32
  | 0, hn => (idleOut, accFirstAt m c ⟨0, hn⟩ (Nat.zero_mod _))
  | n + 1, hn =>
    if h0 : (n + 1) % 5 = 0 then (idleOut, accFirstAt m c ⟨n + 1, hn⟩ h0)
    else if h4 : (n + 1) % 5 = 4 then
      (outLastAt m c ⟨n + 1, hn⟩ h4 (stateAt c n (Nat.lt_of_succ_lt hn)).2, accLastAt m c ⟨n + 1, hn⟩ h4 (stateAt c n (Nat.lt_of_succ_lt hn)).2)
    else (idleOut, accMiddleAt m c ⟨n + 1, hn⟩ h0 h4 (stateAt c n (Nat.lt_of_succ_lt hn)).2)

/-- What the point before `t` left in the accumulator. -/
abbrev prevAcc (c : Dev nD) (t : Fin cfg0.N) : Vec F S512x640 .f32 :=
  (stateAt m c (t.val - 1) (Nat.lt_of_le_of_lt (Nat.sub_le _ _) t.isLt)).2

theorem stateAt_first (c : Dev nD) (t : Fin cfg0.N) (h0 : t.val % 5 = 0) :
    stateAt m c t.val t.isLt = (idleOut, accFirstAt m c t h0) := by
  obtain ⟨n, hn⟩ := t
  cases n with
  | zero => exact rfl
  | succ n => exact (dif_pos h0).trans rfl
theorem stateAt_middle (c : Dev nD) (t : Fin cfg0.N) (h0 : ¬ t.val % 5 = 0) (h4 : ¬ t.val % 5 = 4) :
    stateAt m c t.val t.isLt = (idleOut, accMiddleAt m c t h0 h4 (prevAcc m c t)) := by
  obtain ⟨n, hn⟩ := t
  cases n with
  | zero => exact absurd (Nat.zero_mod _) h0
  | succ n => exact (dif_neg h0).trans ((dif_neg h4).trans rfl)
theorem stateAt_last (c : Dev nD) (t : Fin cfg0.N) (h4 : t.val % 5 = 4) :
    stateAt m c t.val t.isLt = (outLastAt m c t h4 (prevAcc m c t), accLastAt m c t h4 (prevAcc m c t)) := by
  obtain ⟨n, hn⟩ := t
  cases n with
  | zero => exact absurd h4 (by show ¬ (0 % 5 = 4); decide)
  | succ n => exact (dif_neg (by dsimp only at h4; omega)).trans ((dif_pos h4).trans rfl)

/-! ## The invariant between points -/

/-- Before position `n`: at the region's start the plain invariant (the accumulator at anything); afterwards the
    accumulator at what position `n − 1` left, and the generator register at some state. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((stateAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- The pipeline's proof data on core `c`: the arrays as the region finds them; after the body each input window's
    buffer at its block and the output window's at `stateAt`'s first component; the invariant `PhiS`; full shares,
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (stateAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- An input window's buffer is handed back at its block. -/
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; t mod 5 says which case the point is in; the invariant
    hands over the accumulator at what the point before left (at anything before the very first point) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t]
  have hN : t.val < 250 := lt_of_lt_of_eq t.isLt (show cfg0.N = 250 from N_0)
  by_cases h0 : t.val % 5 = 0
  · rw [Dat.leavesExact_idle (dats m 0 c) 3 t (idle3 t (firstH t h0).2.2) (noFlush3 t (firstH t h0).2.2)]
    rw [stateAt_first m c t h0]
    unfold accFirstAt accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) (firstH t h0).1 (firstH t h0).2.1 (firstH t h0).2.2 (iblk m c 0 t) (iblk m c 1 t) (iblk m c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) (firstH t h0).1 (firstH t h0).2.1 (firstH t h0).2.2 (iblk m c 0 t) (iblk m c 1 t) (iblk m c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h4 : t.val % 5 = 4
    · rw [show (dats m 0 c).leavesExact 3 t = owns (c : Thread nD τ) (ms3 t) fullShare ((dats m 0 c).after 3 t) from by
        unfold Dat.leavesExact; rw [live3 t (lastH t h4).2.2], after3]
      rw [stateAt_last m c t h4]
      unfold outLastAt accLastAt outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) (lastH t h4).1 (lastH t h4).2.1 (lastH t h4).2.2 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverAccLast c _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutLast c _ _ _ _ _ _ _ _ _ _ _ _ _ _ _ _ _ _)
    · rw [Dat.leavesExact_idle (dats m 0 c) 3 t (idle3 t (middleH t h0 h4).2.2) (noFlush3 t (middleH t h0 h4).2.2)]
      rw [stateAt_middle m c t h0 h4]
      unfold accMiddleAt accMiddle; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runMiddle c (grid0.coords t) (ms0 t) (hs0 t) (ms1 t) (hs1 t) (ms2 t) (hs2 t) (ms3 t) (hs3 t) accM (Memref.isWhole_whole _) (middleH t h0 h4).1 (middleH t h0 h4).2.1 (middleH t h0 h4).2.2 (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverMiddle c _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- The launch hands the region the plain invariant, which is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the plain one back: what the accumulator holds is forgotten. -/
theorem hout (c : Dev nD) : (dats m 0 c).Φ (Fin.last cfg0.N) ⊢ Pipeline.ΦA spec0 c := by
  have ht : (Fin.last cfg0.N).val ≠ 0 := by rw [Fin.val_last]; have : cfg0.N = 250 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

/-! ## The run and the frame -/

set_option backward.isDefEq.respectTransparency.types false in
/-- Every weakly fair execution of @main terminates, faulting nowhere, with every array of the pipeline at what the
    proof data compute and every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The program runs to the end, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KernelIdeal.Entry.lean ====
/-
  The state in which the pipelined region is entered, and the bookkeeping every point of its grid shares.

  Before the region the host lines build the five-slot array H : [5, 512, 2048] — slot 0 the hidden states, slot d + 1
  the hidden states with every row whose adapter index differs from d replaced by zero — and write nothing the region
  reads besides. The region walks a 50 × 5 grid: point t = 5·v + d handles vocabulary tile v and slot d. Three
  conditions on d steer the body: d = 0 (start the accumulator), d > 0 (add to it), d = 4 (copy it out).
  Here: the buffers' contents at the region's entry, that the four arguments are as launched there, each window's
  block at a point, the three conditions in closed form over t mod 5, and where the output window is idle.
-/
import proofs.«147714_j15977278341385_2_alg».proof.Proof.Gen.KernelIdeal.Launch
import proofs.«147714_j15977278341385_2_alg».proof.Proof.Gen.KernelIdeal.Skeleton
import proofs.«147714_j15977278341385_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The nine stretches of host lines before the region, in order. -/
abbrev prefixOps : List (List (HloOp τ sig (Elt F))) :=
  [hostOps0, hostOps0_1, hostOps0_2, hostOps0_3, hostOps0_4, hostOps0_5, hostOps0_6, hostOps0_7, hostOps0_8]

/-- What core `c`'s buffers hold when the region is entered: the launch contents after the host lines. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main is the host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host line writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.TRef.unary, StableHlo.TRef.ternary, StableHlo.TRef.of, Finset.mem_singleton]
    repeat' apply And.intro
    all_goals exact StableHlo.devRef_ne_of_ne (by decide)))
/-- No host line writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.TRef.unary, StableHlo.TRef.ternary, StableHlo.TRef.of, Finset.mem_singleton]
    repeat' apply And.intro
    all_goals exact StableHlo.devRef_ne_of_ne (by decide)))
/-- No host line writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.TRef.unary, StableHlo.TRef.ternary, StableHlo.TRef.of, Finset.mem_singleton]
    repeat' apply And.intro
    all_goals exact StableHlo.devRef_ne_of_ne (by decide)))
/-- No host line writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.TRef.unary, StableHlo.TRef.ternary, StableHlo.TRef.of, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (when it is not fetched the
    block index has not moved), for any proof data over the entry contents whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (when it is not fetched the
    block index has not moved), for any proof data over the entry contents whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (when it is not fetched the
    block index has not moved), for any proof data over the entry contents whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- From a run that ends with every array of the pipeline at what the proof data compute and every other buffer at its
    entry contents: the four arguments end as launched (two are input windows' arrays, two are read by host lines only). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c)⟩) h

/-! ## The body's three conditions -/

/-- "d = 0", as the body computes it from the grid coordinates. -/
abbrev isFirst (i : grid0.Coords) : Prop := (Scalar.cmpi .ne (Scalar.extui (Scalar.cmpi .eq (BitVec.ofNat 32 (i 1).val) 0#32)) 0#32) = 1#1
/-- "d > 0". -/
abbrev isLater (i : grid0.Coords) : Prop := (Scalar.cmpi .ne (Scalar.extui (Scalar.cmpi .sgt (BitVec.ofNat 32 (i 1).val) 0#32)) 0#32) = 1#1
/-- "d = 4". -/
abbrev isLast (i : grid0.Coords) : Prop := k0_cond3 i = 1#1

theorem isFirst_iff : ∀ t : Fin cfg0.N, isFirst (grid0.coords t) ↔ t.val % 5 = 0 :=
  (by decide +kernel : ∀ t : Fin grid0.N, isFirst (grid0.coords t) ↔ t.val % 5 = 0)
theorem isLater_iff : ∀ t : Fin cfg0.N, isLater (grid0.coords t) ↔ ¬ t.val % 5 = 0 :=
  (by decide +kernel : ∀ t : Fin grid0.N, isLater (grid0.coords t) ↔ ¬ t.val % 5 = 0)
theorem isLast_iff : ∀ t : Fin cfg0.N, isLast (grid0.coords t) ↔ t.val % 5 = 4 :=
  (by decide +kernel : ∀ t : Fin grid0.N, isLast (grid0.coords t) ↔ t.val % 5 = 4)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from d = 4 the body stores nothing into the output window: it is idle there, -/
theorem idle3 : ∀ t : Fin cfg0.N, ¬ isLast (grid0.coords t) → cfg0.idle 3 (grid0.coords t) = true := by decide +kernel
/-- and the pipeline does not write its block back there. -/
theorem noFlush3 : ∀ t : Fin cfg0.N, ¬ isLast (grid0.coords t) → (cfg0.win 3).flush t = false := by decide +kernel
/-- At d = 4 it is live. -/
theorem live3 : ∀ t : Fin cfg0.N, isLast (grid0.coords t) → cfg0.idle 3 (grid0.coords t) = false := by decide +kernel

/-! ## The staging memrefs at a point, the accumulator, the invariant -/

/-- One staging buffer of the output window, through which its contents are stated. -/
abbrev VO : View sig .tc .vmem S512x640 .f32 := (Memref.whole cc0_stg3_0 : Memref sig .tc .vmem S512x640 .f32).view
abbrev ms0 (t : Fin cfg0.N) : Memref sig .tc .vmem S5x512x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S640x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x640x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x640 .f32 := win0_3.stage (cfg0.slots t 3)
abbrev hs3 (t : Fin cfg0.N) : (ms3 t).IsWhole := hstage0_3 ((cfg0.slots t 3).cast nbuf0_3)
/-- The accumulator: a scratch buffer of the kernel's own, kept from point to point. -/
abbrev accM : Memref sig .tc .vmem S512x640 .f32 := Memref.whole cc0_scratch0
abbrev VS : View sig .tc .vmem S512x640 .f32 := accM.view

/-- The region's plain invariant spelled out: the accumulator owned at some contents, the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KernelIdeal.CaseFirst.lean ====
/-
  The body at a point with d = 0. Only the first branch runs: it reads slot 0 of H and the embedding tile and stores their
  product (contracted over the hidden axis) into the accumulator, whatever the accumulator held; the output window is
  left as found. The triple is obtained by running the body symbolically; the list of stores the accumulator ends with
  is whatever that run finds.
-/
import proofs.«147714_j15977278341385_2_alg».proof.Proof.KernelIdeal.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with at a point with d = 0, with the body's triple there: inputs at their blocks and
    the output buffer at any contents are handed back untouched; the accumulator, taken at anything, comes back with
    the pieces written. -/
noncomputable def runFirst (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : isFirst i) (hc1 : ¬ isLater i) (hc2 : ¬ isLast i)
    (x0 : Vec F S5x512x2048 .bf16) (x1 : Vec F S640x2048 .f32) (x2 : Vec F S1x640x2048 .f32) :
    Σ' (L3 : List (View.Piece (Elt F) S512x640 .f32)), { LS : List (View.Piece (Elt F) S512x640 .f32) //
      ∀ (xi3 : Vec F S512x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KernelIdeal.CaseMiddle.lean ====
/-
  The body at a point with 0 < d < 4. Only the second branch runs: it reads slot d of H and the weight tile of adapter
  d − 1, and stores the accumulator plus their product back into the accumulator; the output window is left as found.
-/
import proofs.«147714_j15977278341385_2_alg».proof.Proof.KernelIdeal.CaseFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with at a point with 0 < d < 4, with the body's triple there: the accumulator is taken
    at the contents `xs` the point before left. -/
noncomputable def runMiddle (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : ¬ isLast i)
    (x0 : Vec F S5x512x2048 .bf16) (x1 : Vec F S640x2048 .f32) (x2 : Vec F S1x640x2048 .f32) (xs : Vec F S512x640 .f32) :
    Σ' (L3 : List (View.Piece (Elt F) S512x640 .f32)), { LS : List (View.Piece (Elt F) S512x640 .f32) //
      ∀ (xi3 : Vec F S512x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KernelIdeal.CaseLast.lean ====
/-
  The body at a point with d = 4. The second branch adds the last product to the accumulator, then the third branch
  copies the accumulator into the output window's buffer, which the pipeline writes back after this point.
-/
import proofs.«147714_j15977278341385_2_alg».proof.Proof.KernelIdeal.CaseMiddle

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the output buffer and the accumulator end with at a point with d = 4, with the body's triple there: the
    output buffer is taken at anything and comes back with its pieces written. -/
noncomputable def runLast (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) :
    Σ' (L3 : List (View.Piece (Elt F) S512x640 .f32)), { LS : List (View.Piece (Elt F) S512x640 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.KernelIdeal.Frame.lean ====
/-
  The run of the whole program, point by point.

  At point t = 5·v + d the accumulator holds, after the body: for d = 0 the product of slot 0 of H with embedding tile v;
  for d > 0 what the point before left plus the product of slot d with tile v of adapter d − 1's weights. At d = 4 the
  output window's buffer is a copy of it, and the pipeline writes that block back; at the other points the output
  window is idle. Stated here without opening the arithmetic: each case's contents are the stores its symbolic run
  found, read back; the contents after point n are defined by recursion on n, the invariant between points says the
  accumulator holds them, and the body obligation is the three case runs. From the run: the four arguments end as
  launched.
-/
import proofs.«147714_j15977278341385_2_alg».proof.Proof.KernelIdeal.CaseLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

variable {m}

/-- The accumulator after a point with d = 0: the stores found there, read back. -/
def accFirst (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : isFirst i) (hc1 : ¬ isLater i) (hc2 : ¬ isLast i)
    (x0 : Vec F S5x512x2048 .bf16) (x1 : Vec F S640x2048 .f32) (x2 : Vec F S1x640x2048 .f32) : Vec F S512x640 .f32 :=
  VS.read (Elt F) (VS.writes (Elt F) VS.junk (runFirst c i arg2 harg2 arg3 harg3 arg4 harg4 arg5 harg5 arg6 harg6 hc0 hc1 hc2 x0 x1 x2).2.1)
/-- Those stores tile the accumulator, so they cover it. -/
theorem coverFirst (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : isFirst i) (hc1 : ¬ isLater i) (hc2 : ¬ isLast i)
    (x0 : Vec F S5x512x2048 .bf16) (x1 : Vec F S640x2048 .f32) (x2 : Vec F S1x640x2048 .f32) (y : S512x640.Idx) :
    ∃ pc ∈ (runFirst c i arg2 harg2 arg3 harg3 arg4 harg4 arg5 harg5 arg6 harg6 hc0 hc1 hc2 x0 x1 x2).2.1, y ∈ pc.1.set :=
  View.cover_of_tiledL (runFirst c i arg2 harg2 arg3 harg3 arg4 harg4 arg5 harg5 arg6 harg6 hc0 hc1 hc2 x0 x1 x2).2.1 S512x640.size (by sl_kernel_rfl) y

/-- The accumulator after a point with 0 < d < 4, over what the point before left (`xs`). -/
def accMiddle (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : ¬ isLast i)
    (x0 : Vec F S5x512x2048 .bf16) (x1 : Vec F S640x2048 .f32) (x2 : Vec F S1x640x2048 .f32) (xs : Vec F S512x640 .f32) : Vec F S512x640 .f32 :=
  VS.read (Elt F) (VS.writes (Elt F) VS.junk (runMiddle c i arg2 harg2 arg3 harg3 arg4 harg4 arg5 harg5 arg6 harg6 hc0 hc1 hc2 x0 x1 x2 xs).2.1)
theorem coverMiddle (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : ¬ isLast i)
    (x0 : Vec F S5x512x2048 .bf16) (x1 : Vec F S640x2048 .f32) (x2 : Vec F S1x640x2048 .f32) (xs : Vec F S512x640 .f32) (y : S512x640.Idx) :
    ∃ pc ∈ (runMiddle c i arg2 harg2 arg3 harg3 arg4 harg4 arg5 harg5 arg6 harg6 hc0 hc1 hc2 x0 x1 x2 xs).2.1, y ∈ pc.1.set :=
  View.cover_of_tiledL (runMiddle c i arg2 harg2 arg3 harg3 arg4 harg4 arg5 harg5 arg6 harg6 hc0 hc1 hc2 x0 x1 x2 xs).2.1 S512x640.size (by sl_kernel_rfl) y

/-- The accumulator after a point with d = 4, -/
def accLast (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) : Vec F S512x640 .f32 :=
  VS.read (Elt F) (VS.writes (Elt F) VS.junk (runLast c i arg2 harg2 arg3 harg3 arg4 harg4 arg5 harg5 arg6 harg6 hc0 hc1 hc2 x0 x1 x2 xs).2.1)
theorem coverAccLast (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) (y : S512x640.Idx) :
    ∃ pc ∈ (runLast c i arg2 harg2 arg3 harg3 arg4 harg4 arg5 harg5 arg6 harg6 hc0 hc1 hc2 x0 x1 x2 xs).2.1, y ∈ pc.1.set :=
  View.cover_of_tiledL (runLast c i arg2 harg2 arg3 harg3 arg4 harg4 arg5 harg5 arg6 harg6 hc0 hc1 hc2 x0 x1 x2 xs).2.1 S512x640.size (by sl_kernel_rfl) y
/-- and the output window's buffer there. -/
def outLast (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) : Vec F S512x640 .f32 :=
  VO.read (Elt F) (VO.writes (Elt F) VO.junk (runLast c i arg2 harg2 arg3 harg3 arg4 harg4 arg5 harg5 arg6 harg6 hc0 hc1 hc2 x0 x1 x2 xs).1)
theorem coverOutLast (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) (y : S512x640.Idx) :
    ∃ pc ∈ (runLast c i arg2 harg2 arg3 harg3 arg4 harg4 arg5 harg5 arg6 harg6 hc0 hc1 hc2 x0 x1 x2 xs).1, y ∈ pc.1.set :=
  View.cover_of_tiledL (runLast c i arg2 harg2 arg3 harg3 arg4 harg4 arg5 harg5 arg6 harg6 hc0 hc1 hc2 x0 x1 x2 xs).1 S512x640.size (by sl_kernel_rfl) y

/-- What stands for the output window's buffer at a point where it is idle: nothing consults it. -/
def idleOut : Vec F S512x640 .f32 := VO.read (Elt F) VO.junk

/-! ## Which case a point is in -/

theorem firstH (t : Fin cfg0.N) (h0 : t.val % 5 = 0) :
    isFirst (grid0.coords t) ∧ ¬ isLater (grid0.coords t) ∧ ¬ isLast (grid0.coords t) :=
  ⟨(isFirst_iff t).mpr h0, fun h => (isLater_iff t).mp h h0, fun h => by have := (isLast_iff t).mp h; omega⟩
theorem middleH (t : Fin cfg0.N) (h0 : ¬ t.val % 5 = 0) (h4 : ¬ t.val % 5 = 4) :
    ¬ isFirst (grid0.coords t) ∧ isLater (grid0.coords t) ∧ ¬ isLast (grid0.coords t) :=
  ⟨fun h => h0 ((isFirst_iff t).mp h), (isLater_iff t).mpr h0, fun h => h4 ((isLast_iff t).mp h)⟩
theorem lastH (t : Fin cfg0.N) (h4 : t.val % 5 = 4) :
    ¬ isFirst (grid0.coords t) ∧ isLater (grid0.coords t) ∧ isLast (grid0.coords t) :=
  ⟨fun h => by have := (isFirst_iff t).mp h; omega, (isLater_iff t).mpr (by omega), (isLast_iff t).mpr h4⟩

variable (m)

/-- Each case's contents at point `t`: the case run at the point's staging memrefs and input blocks. -/
def accFirstAt (c : Dev nD) (t : Fin cfg0.N) (h0 : t.val % 5 = 0) : Vec F S512x640 .f32 :=
  accFirst c (grid0.coords t) (ms0 t) (hs0 t) (ms1 t) (hs1 t) (ms2 t) (hs2 t) (ms3 t) (hs3 t) accM (Memref.isWhole_whole _) (firstH t h0).1 (firstH t h0).2.1 (firstH t h0).2.2 (iblk m c 0 t) (iblk m c 1 t) (iblk m c 2 t)
def accMiddleAt (c : Dev nD) (t : Fin cfg0.N) (h0 : ¬ t.val % 5 = 0) (h4 : ¬ t.val % 5 = 4) (xs : Vec F S512x640 .f32) : Vec F S512x640 .f32 :=
  accMiddle c (grid0.coords t) (ms0 t) (hs0 t) (ms1 t) (hs1 t) (ms2 t) (hs2 t) (ms3 t) (hs3 t) accM (Memref.isWhole_whole _) (middleH t h0 h4).1 (middleH t h0 h4).2.1 (middleH t h0 h4).2.2 (iblk m c 0 t) (iblk m c 1 t) (iblk m c 2 t) xs
def accLastAt (c : Dev nD) (t : Fin cfg0.N) (h4 : t.val % 5 = 4) (xs : Vec F S512x640 .f32) : Vec F S512x640 .f32 :=
  accLast c (grid0.coords t) (ms0 t) (hs0 t) (ms1 t) (hs1 t) (ms2 t) (hs2 t) (ms3 t) (hs3 t) accM (Memref.isWhole_whole _) (lastH t h4).1 (lastH t h4).2.1 (lastH t h4).2.2 (iblk m c 0 t) (iblk m c 1 t) (iblk m c 2 t) xs
def outLastAt (c : Dev nD) (t : Fin cfg0.N) (h4 : t.val % 5 = 4) (xs : Vec F S512x640 .f32) : Vec F S512x640 .f32 :=
  outLast c (grid0.coords t) (ms0 t) (hs0 t) (ms1 t) (hs1 t) (ms2 t) (hs2 t) (ms3 t) (hs3 t) accM (Memref.isWhole_whole _) (lastH t h4).1 (lastH t h4).2.1 (lastH t h4).2.2 (iblk m c 0 t) (iblk m c 1 t) (iblk m c 2 t) xs

/-! ## The contents after each point -/

/-- The output window's buffer and the accumulator after the body at position `n`, by recursion on `n`: a point with
    d = 0 starts the accumulator afresh, any other continues from what position `n − 1` left. -/
def stateAt (c : Dev nD) : (n : ℕ) → n < cfg0.N → Vec F S512x640 .f32 × Vec F S512x640 .f32
  | 0, hn => (idleOut, accFirstAt m c ⟨0, hn⟩ (Nat.zero_mod _))
  | n + 1, hn =>
    if h0 : (n + 1) % 5 = 0 then (idleOut, accFirstAt m c ⟨n + 1, hn⟩ h0)
    else if h4 : (n + 1) % 5 = 4 then
      (outLastAt m c ⟨n + 1, hn⟩ h4 (stateAt c n (Nat.lt_of_succ_lt hn)).2, accLastAt m c ⟨n + 1, hn⟩ h4 (stateAt c n (Nat.lt_of_succ_lt hn)).2)
    else (idleOut, accMiddleAt m c ⟨n + 1, hn⟩ h0 h4 (stateAt c n (Nat.lt_of_succ_lt hn)).2)

/-- What the point before `t` left in the accumulator. -/
abbrev prevAcc (c : Dev nD) (t : Fin cfg0.N) : Vec F S512x640 .f32 :=
  (stateAt m c (t.val - 1) (Nat.lt_of_le_of_lt (Nat.sub_le _ _) t.isLt)).2

theorem stateAt_first (c : Dev nD) (t : Fin cfg0.N) (h0 : t.val % 5 = 0) :
    stateAt m c t.val t.isLt = (idleOut, accFirstAt m c t h0) := by
  obtain ⟨n, hn⟩ := t
  cases n with
  | zero => exact rfl
  | succ n => exact (dif_pos h0).trans rfl
theorem stateAt_middle (c : Dev nD) (t : Fin cfg0.N) (h0 : ¬ t.val % 5 = 0) (h4 : ¬ t.val % 5 = 4) :
    stateAt m c t.val t.isLt = (idleOut, accMiddleAt m c t h0 h4 (prevAcc m c t)) := by
  obtain ⟨n, hn⟩ := t
  cases n with
  | zero => exact absurd (Nat.zero_mod _) h0
  | succ n => exact (dif_neg h0).trans ((dif_neg h4).trans rfl)
theorem stateAt_last (c : Dev nD) (t : Fin cfg0.N) (h4 : t.val % 5 = 4) :
    stateAt m c t.val t.isLt = (outLastAt m c t h4 (prevAcc m c t), accLastAt m c t h4 (prevAcc m c t)) := by
  obtain ⟨n, hn⟩ := t
  cases n with
  | zero => exact absurd h4 (by show ¬ (0 % 5 = 4); decide)
  | succ n => exact (dif_neg (by dsimp only at h4; omega)).trans ((dif_pos h4).trans rfl)

/-! ## The invariant between points -/

/-- Before position `n`: at the region's start the plain invariant (the accumulator at anything); afterwards the
    accumulator at what position `n − 1` left, and the generator register at some state. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((stateAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- The pipeline's proof data on core `c`: the arrays as the region finds them; after the body each input window's
    buffer at its block and the output window's at `stateAt`'s first component; the invariant `PhiS`; full shares,
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (stateAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- An input window's buffer is handed back at its block. -/
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; t mod 5 says which case the point is in; the invariant
    hands over the accumulator at what the point before left (at anything before the very first point) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t]
  have hN : t.val < 250 := lt_of_lt_of_eq t.isLt (show cfg0.N = 250 from N_0)
  by_cases h0 : t.val % 5 = 0
  · rw [Dat.leavesExact_idle (dats m 0 c) 3 t (idle3 t (firstH t h0).2.2) (noFlush3 t (firstH t h0).2.2)]
    rw [stateAt_first m c t h0]
    unfold accFirstAt accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) (firstH t h0).1 (firstH t h0).2.1 (firstH t h0).2.2 (iblk m c 0 t) (iblk m c 1 t) (iblk m c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) (firstH t h0).1 (firstH t h0).2.1 (firstH t h0).2.2 (iblk m c 0 t) (iblk m c 1 t) (iblk m c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h4 : t.val % 5 = 4
    · rw [show (dats m 0 c).leavesExact 3 t = owns (c : Thread nD τ) (ms3 t) fullShare ((dats m 0 c).after 3 t) from by
        unfold Dat.leavesExact; rw [live3 t (lastH t h4).2.2], after3]
      rw [stateAt_last m c t h4]
      unfold outLastAt accLastAt outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) (lastH t h4).1 (lastH t h4).2.1 (lastH t h4).2.2 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverAccLast c _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutLast c _ _ _ _ _ _ _ _ _ _ _ _ _ _ _ _ _ _)
    · rw [Dat.leavesExact_idle (dats m 0 c) 3 t (idle3 t (middleH t h0 h4).2.2) (noFlush3 t (middleH t h0 h4).2.2)]
      rw [stateAt_middle m c t h0 h4]
      unfold accMiddleAt accMiddle; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runMiddle c (grid0.coords t) (ms0 t) (hs0 t) (ms1 t) (hs1 t) (ms2 t) (hs2 t) (ms3 t) (hs3 t) accM (Memref.isWhole_whole _) (middleH t h0 h4).1 (middleH t h0 h4).2.1 (middleH t h0 h4).2.2 (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverMiddle c _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- The launch hands the region the plain invariant, which is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the plain one back: what the accumulator holds is forgotten. -/
theorem hout (c : Dev nD) : (dats m 0 c).Φ (Fin.last cfg0.N) ⊢ Pipeline.ΦA spec0 c := by
  have ht : (Fin.last cfg0.N).val ≠ 0 := by rw [Fin.val_last]; have : cfg0.N = 250 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

/-! ## The run and the frame -/

set_option backward.isDefEq.respectTransparency.types false in
/-- Every weakly fair execution of @main terminates, faulting nowhere, with every array of the pipeline at what the
    proof data compute and every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The program runs to the end, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KernelIdeal.Pieces.lean ====
/-
  Each case's contents, opened: the stores a case's run found, read back, are the skeleton's payloads of the blocks.

  With h the slot of H the body loads (the [1, 512, 2048] box of the staged array at first-axis offset d):
    d = 0       the accumulator ends at the first payload of h and the embedding tile;
    0 < d       it ends at the later payload of h, the weight tile and what it held before;
    d = 4       the output window's buffer ends at the same value, read back from the accumulator just stored.
  Each is one store through the rectangle that is the whole buffer, so what is read back is that store's payload, and
  each load through a whole-buffer rectangle reads the buffer's contents.
-/
import proofs.«147714_j15977278341385_2_alg».proof.Proof.KernelIdeal.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {m}

theorem hz2 : (![0, 0] : Fin 2 → Nat) = fun _ => 0 := funext fun a => by fin_cases a <;> rfl
theorem hz3 : (![0, 0, 0] : Fin 3 → Nat) = fun _ => 0 := funext fun a => by fin_cases a <;> rfl

/-- The slot of the staged five-slot array the body loads at grid point `i`: the box of extent [1, 512, 2048] at the
    offsets the body computes from d. -/
abbrev slotOf (i : grid0.Coords) (x0 : Vec F S5x512x2048 .bf16) : Vec F S1x512x2048 .bf16 :=
  View.ld x0 (Rect.unit (s := S5x512x2048) (k0_off1 i) S1x512x2048.size (k0_off1_inb i))

theorem accFirst_eq (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : isFirst i) (hc1 : ¬ isLater i) (hc2 : ¬ isLast i)
    (x0 : Vec F S5x512x2048 .bf16) (x1 : Vec F S640x2048 .f32) (x2 : Vec F S1x640x2048 .f32) :
    accFirst c i arg2 harg2 arg3 harg3 arg4 harg4 arg5 harg5 arg6 harg6 hc0 hc1 hc2 x0 x1 x2 = k0_pay2 (slotOf i x0) x1 := by
  unfold accFirst
  rw [View.read_writes_eq_canon _ _ _ (coverFirst c i arg2 harg2 arg3 harg3 arg4 harg4 arg5 harg5 arg6 harg6 hc0 hc1 hc2 x0 x1 x2)]
  unfold runFirst
  dsimp only
  rw [View.canon_unit_zero hz2]
  simp only [View.readAt_eq_ld, harg2.read_unread, harg3.read_unread, View.ld_unit_zero (S := S640x2048) hz2]

theorem accMiddle_eq (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : ¬ isLast i)
    (x0 : Vec F S5x512x2048 .bf16) (x1 : Vec F S640x2048 .f32) (x2 : Vec F S1x640x2048 .f32) (xs : Vec F S512x640 .f32) :
    accMiddle c i arg2 harg2 arg3 harg3 arg4 harg4 arg5 harg5 arg6 harg6 hc0 hc1 hc2 x0 x1 x2 xs = k0_pay3 (slotOf i x0) x2 xs := by
  unfold accMiddle
  rw [View.read_writes_eq_canon _ _ _ (coverMiddle c i arg2 harg2 arg3 harg3 arg4 harg4 arg5 harg5 arg6 harg6 hc0 hc1 hc2 x0 x1 x2 xs)]
  unfold runMiddle
  dsimp only
  rw [View.canon_unit_zero hz2]
  simp only [View.readAt_eq_ld, harg2.read_unread, harg4.read_unread, harg6.read_unread, View.ld_unit_zero (S := S1x640x2048) hz3, View.ld_unit_zero (S := S512x640) hz2]

theorem accLast_eq (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) :
    accLast c i arg2 harg2 arg3 harg3 arg4 harg4 arg5 harg5 arg6 harg6 hc0 hc1 hc2 x0 x1 x2 xs = k0_pay3 (slotOf i x0) x2 xs := by
  unfold accLast
  rw [View.read_writes_eq_canon _ _ _ (coverAccLast c i arg2 harg2 arg3 harg3 arg4 harg4 arg5 harg5 arg6 harg6 hc0 hc1 hc2 x0 x1 x2 xs)]
  unfold runLast
  dsimp only
  sl_unfold_words
  rw [View.canon_unit_zero hz2]
  simp only [View.readAt_eq_ld, harg2.read_unread, harg4.read_unread, harg6.read_unread, View.ld_unit_zero (S := S1x640x2048) hz3, View.ld_unit_zero (S := S512x640) hz2]
  try rfl

theorem outLast_eq (c : Dev nD) (i : grid0.Coords) (arg2 : Memref sig .tc .vmem S5x512x2048 .bf16) (harg2 : arg2.IsWhole) (arg3 : Memref sig .tc .vmem S640x2048 .f32) (harg3 : arg3.IsWhole)
    (arg4 : Memref sig .tc .vmem S1x640x2048 .f32) (harg4 : arg4.IsWhole) (arg5 : Memref sig .tc .vmem S512x640 .f32) (harg5 : arg5.IsWhole)
    (arg6 : Memref sig .tc .vmem S512x640 .f32) (harg6 : arg6.IsWhole)
    (hc0 : ¬ isFirst i) (hc1 : isLater i) (hc2 : isLast i)
    (x0 : Vec F S5x512x2048 .bf16) (x1 : Vec F S640x2048 .f32) (x2 : Vec F S1x640x2048 .f32) (xs : Vec F S512x640 .f32) :
    outLast c i arg2 harg2 arg3 harg3 arg4 harg4 arg5 harg5 arg6 harg6 hc0 hc1 hc2 x0 x1 x2 xs = k0_pay3 (slotOf i x0) x2 xs := by
  unfold outLast
  rw [View.read_writes_eq_canon _ _ _ (coverOutLast c i arg2 harg2 arg3 harg3 arg4 harg4 arg5 harg5 arg6 harg6 hc0 hc1 hc2 x0 x1 x2 xs)]
  unfold runLast
  dsimp only
  sl_unfold_words
  rw [View.canon_unit_zero hz2, View.readCov_unit_zero (S := S512x640) _ hz2]
  simp only [View.readAt_eq_ld, harg2.read_unread, harg4.read_unread, harg6.read_unread, View.ld_unit_zero (S := S1x640x2048) hz3, View.ld_unit_zero (S := S512x640) hz2]
  rfl

end Cert.KernelIdeal.Hand

end
-- ==== Proof.KernelIdeal.Blocks.lean ====
/-
  Where the blocks sit. At point t = 5·v + d:
    the staged five-slot array's block is the whole array, and the body loads its slot d;
    the embedding's block is rows 640·v .. 640·v + 639;
    the weights' block is adapter max(d − 1, 0), rows 640·v .. 640·v + 639;
    the output's block is columns 640·v .. 640·v + 639.
  The index maps are decided once over the 250 points; each block read at an index is the array at the shifted index.
-/
import proofs.«147714_j15977278341385_2_alg».proof.Proof.KernelIdeal.Pieces
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

open Idealize.ShloMosaic.Pipeline (Dat)

variable {F : FTy → Type} [FloatOps F]
variable (m : (ℓ : Loc nD τ sig) → Buf (Elt F) ℓ)

/-! ## The index maps over the grid -/

theorem index0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem index1 : ∀ t : Fin cfg0.N, win0_1.index t 0 = t.val / 5 ∧ win0_1.index t 1 = 0 :=
  (by decide +kernel : ∀ t : Fin grid0.N, win0_1.index t 0 = t.val / 5 ∧ win0_1.index t 1 = 0)
theorem index2 : ∀ t : Fin cfg0.N, win0_2.index t 0 = t.val % 5 - 1 ∧ win0_2.index t 1 = t.val / 5 ∧ win0_2.index t 2 = 0 :=
  (by decide +kernel : ∀ t : Fin grid0.N, win0_2.index t 0 = t.val % 5 - 1 ∧ win0_2.index t 1 = t.val / 5 ∧ win0_2.index t 2 = 0)
theorem index3 : ∀ t : Fin cfg0.N, win0_3.index t 0 = 0 ∧ win0_3.index t 1 = t.val / 5 :=
  (by decide +kernel : ∀ t : Fin grid0.N, win0_3.index t 0 = 0 ∧ win0_3.index t 1 = t.val / 5)
/-- The body's load offsets: slot d, rows and columns from zero. -/
theorem slotOff : ∀ t : Fin cfg0.N, k0_off1 (grid0.coords t) 0 = t.val % 5 ∧ k0_off1 (grid0.coords t) 1 = 0 ∧ k0_off1 (grid0.coords t) 2 = 0 :=
  (by decide +kernel : ∀ t : Fin grid0.N, k0_off1 (grid0.coords t) 0 = t.val % 5 ∧ k0_off1 (grid0.coords t) 1 = 0 ∧ k0_off1 (grid0.coords t) 2 = 0)

/-! ## The blocks at an index -/

/-- The staged array's block at any point is the whole array. -/
theorem iblk0_apply (c : Dev nD) (t : Fin cfg0.N) (d : Fin 5) (r : Fin 512) (k : Fin 2048) :
    (iblk m c 0 t : S5x512x2048.Idx → Elt F .bf16) (ix3 d r k) = V m c main_v22 (ix3 d r k) := by
  unfold iblk
  rw [View.read_apply]
  show V m c main_v22 _ = V m c main_v22 _
  congr 1
  funext a
  apply Fin.ext
  match a with
  | ⟨0, _⟩ => show win0_0.index t 0 * 5 + 1 * d.val = d.val; rw [(index0 t).1]; omega
  | ⟨1, _⟩ => show win0_0.index t 1 * 512 + 1 * r.val = r.val; rw [(index0 t).2.1]; omega
  | ⟨2, _⟩ => show win0_0.index t 2 * 2048 + 1 * k.val = k.val; rw [(index0 t).2.2]; omega

/-- The slot the body loads at point t, read at (0, r, k): the staged array at (d, r, k), d = t mod 5. -/
theorem slot_apply (t : Fin cfg0.N) (X : Vec F S5x512x2048 .bf16) (d : Fin 5) (hd : d.val = t.val % 5) (r : Fin 512) (k : Fin 2048) :
    slotOf (grid0.coords t) X (ix3 (0 : Fin 1) r k) = X (ix3 d r k) := by
  show X _ = X _
  congr 1
  funext a
  apply Fin.ext
  match a with
  | ⟨0, _⟩ => show k0_off1 (grid0.coords t) 0 + 1 * 0 = d.val; rw [(slotOff t).1]; omega
  | ⟨1, _⟩ => show k0_off1 (grid0.coords t) 1 + 1 * r.val = r.val; rw [(slotOff t).2.1]; omega
  | ⟨2, _⟩ => show k0_off1 (grid0.coords t) 2 + 1 * k.val = k.val; rw [(slotOff t).2.2]; omega

/-- The embedding's block at point t, read at (j, k): row 640·(t / 5) + j. -/
theorem iblk1_apply (c : Dev nD) (t : Fin cfg0.N) (j : Fin 640) (k : Fin 2048) (R : Fin 32000) (hR : R.val = 640 * (t.val / 5) + j.val) :
    (iblk m c 1 t : S640x2048.Idx → Elt F .f32) (ix2 j k) = V m c main_arg1 (ix2 R k) := by
  unfold iblk
  rw [View.read_apply]
  show V m c main_arg1 _ = V m c main_arg1 _
  congr 1
  funext a
  apply Fin.ext
  match a with
  | ⟨0, _⟩ => show win0_1.index t 0 * 640 + 1 * j.val = R.val; rw [(index1 t).1, hR]; omega
  | ⟨1, _⟩ => show win0_1.index t 1 * 2048 + 1 * k.val = k.val; rw [(index1 t).2]; omega

/-- The weights' block at point t, read at (0, j, k): adapter (t mod 5) − 1, row 640·(t / 5) + j. -/
theorem iblk2_apply (c : Dev nD) (t : Fin cfg0.N) (j : Fin 640) (k : Fin 2048) (e : Fin 4) (he : e.val = t.val % 5 - 1)
    (R : Fin 32000) (hR : R.val = 640 * (t.val / 5) + j.val) :
    (iblk m c 2 t : S1x640x2048.Idx → Elt F .f32) (ix3 (0 : Fin 1) j k) = V m c main_arg2 (ix3 e R k) := by
  unfold iblk
  rw [View.read_apply]
  show V m c main_arg2 _ = V m c main_arg2 _
  congr 1
  funext a
  apply Fin.ext
  match a with
  | ⟨0, _⟩ => show win0_2.index t 0 * 1 + 1 * 0 = e.val; rw [(index2 t).1, he]; omega
  | ⟨1, _⟩ => show win0_2.index t 1 * 640 + 1 * j.val = R.val; rw [(index2 t).2.1, hR]; omega
  | ⟨2, _⟩ => show win0_2.index t 2 * 2048 + 1 * k.val = k.val; rw [(index2 t).2.2]; omega

end Cert.KernelIdeal.Hand

end
-- ==== Proof.KernelIdeal.Payload.lean ====
/-
  The two payloads the body stores into the accumulator, read at an entry over the extended reals.

  Both contain one product on the matrix unit: A : [512, 2048] against B : [640, 2048], contracted over the SECOND axis
  of both (B enters transposed), into a zero accumulator — entry (r, j) is the sum over k of A(r, k) · B(j, k). A change
  of float format is the identity here and the casts between [1, a, b] and [a, b] only drop the unit axis, so
    the first payload  at (r, j)  is  Σ_k h(0, r, k) · e(j, k),
    the later payload  at (r, j)  is  acc(r, j) + Σ_k h(0, r, k) · w(0, j, k),
  where h is the [1, 512, 2048] slot of H the body loaded, e the embedding tile, w the [1, 640, 2048] weight tile.
-/
import proofs.«147714_j15977278341385_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

/-- The product's dimension numbers: contract axis 1 of both operands. -/
abbrev DD : DotDims S512x2048 S640x2048 S512x640 := dot_S512x2048_S640x2048_S512x640_1_1_0_0_n_n

theorem lhs_row (i : S512x640.Idx) (q : DD.contr.Idx) : (DD.lhsIdx i q 0).val = (i 0).val := by
  unfold DotDims.lhsIdx
  rw [dif_neg (show ¬(0 : Fin S512x2048.rank) ∈ DD.lhsBatch by decide), dif_pos (show (0 : Fin S512x2048.rank) ∈ DD.lhsNonContracting by decide)]
  rfl
theorem lhs_k (i : S512x640.Idx) (q : DD.contr.Idx) : (DD.lhsIdx i q 1).val = (q ⟨0, by decide⟩).val :=
  DD.lhsIdx_val_of_single rfl i q
theorem rhs_row (i : S512x640.Idx) (q : DD.contr.Idx) : (DD.rhsIdx i q 0).val = (i 1).val := by
  unfold DotDims.rhsIdx
  rw [dif_neg (show ¬(0 : Fin S640x2048.rank) ∈ DD.rhsBatch by decide), dif_pos (show (0 : Fin S640x2048.rank) ∈ DD.rhsNonContracting by decide)]
  rfl
theorem rhs_k (i : S512x640.Idx) (q : DD.contr.Idx) : (DD.rhsIdx i q 1).val = (q ⟨0, by decide⟩).val :=
  DD.rhsIdx_val_of_single rfl i q

/-- The product into zero at entry (r, j): the sum over the hidden axis of A(r, k) · B(j, k). -/
theorem mmT_apply (A : FVec Ideal S512x2048 .bf16) (B : FVec Ideal S640x2048 .bf16) (r : Fin 512) (j : Fin 640) :
    matmul DD none A B (constant (F := Ideal) S512x640 .f32 0x00000000#32) (ix2 r j) = ∑ k : Fin 2048, A (ix2 r k) * B (ix2 j k) := by
  show FloatOps.matmul DD none A B (constant S512x640 .f32 0x00000000#32) (ix2 r j) = _
  rw [Ideal.matmul_constant_zero_apply, ← Equiv.sum_comp (ValueIdx.contrEquiv1 DD 2048 rfl rfl).symm]
  refine Finset.sum_congr rfl fun k _ => ?_
  have hk := ValueIdx.contrEquiv1_symm_val DD 2048 rfl rfl k
  have el : DD.lhsIdx (ix2 r j) ((ValueIdx.contrEquiv1 DD 2048 rfl rfl).symm k) = ix2 r k := funext fun a => Fin.ext (by
    match a with
    | ⟨0, _⟩ => exact lhs_row _ _
    | ⟨1, _⟩ => exact (lhs_k _ _).trans hk)
  have er : DD.rhsIdx (ix2 r j) ((ValueIdx.contrEquiv1 DD 2048 rfl rfl).symm k) = ix2 j k := funext fun a => Fin.ext (by
    match a with
    | ⟨0, _⟩ => exact rhs_row _ _
    | ⟨1, _⟩ => exact (rhs_k _ _).trans hk)
  rw [el, er]

/-- The payload stored when d = 0, at entry (r, j). -/
theorem first_apply (h : Vec Ideal S1x512x2048 .bf16) (e : Vec Ideal S640x2048 .f32) (r : Fin 512) (j : Fin 640) :
    k0_pay2 (F := Ideal) h e (ix2 r j) = ∑ k : Fin 2048, h (ix3 (0 : Fin 1) r k) * e (ix2 j k) := by
  unfold k0_pay2 k0_pay1
  dsimp only
  rw [shapeCast_self]
  refine (mmT_apply _ _ r j).trans ?_
  refine Finset.sum_congr rfl fun k _ => ?_
  rw [shapeCast_1ab_ab_apply]
  rfl

/-- The payload stored when d > 0, at entry (r, j). -/
theorem later_apply (h : Vec Ideal S1x512x2048 .bf16) (w : Vec Ideal S1x640x2048 .f32) (acc : Vec Ideal S512x640 .f32) (r : Fin 512) (j : Fin 640) :
    k0_pay3 (F := Ideal) h w acc (ix2 r j) = acc (ix2 r j) + ∑ k : Fin 2048, h (ix3 (0 : Fin 1) r k) * w (ix3 (0 : Fin 1) j k) := by
  unfold k0_pay3 k0_pay1
  dsimp only
  rw [shapeCast_self, addf_apply]
  refine congrArg (acc (ix2 r j) + ·) ?_
  refine (mmT_apply _ _ r j).trans ?_
  refine Finset.sum_congr rfl fun k _ => ?_
  rw [shapeCast_1ab_ab_apply, truncf_apply, shapeCast_1ab_ab_apply]

end Cert.KernelIdeal.Hand

end
-- ==== Proof.LibNary5.lean ====
/-
  A host operation over a LITERAL family of five references, read back.

  The generic law gives the result as the operation's function applied to `fun k => F (xs k)`: under that binder the
  reference `xs k` is no literal, so nothing that rewrites "the contents of buffer b after the earlier lines" applies to
  it. Here the family is spelled out: the function applied to the five operands' contents, each at its own reference —
  after which the operands' own contents can go on being computed. (A concatenation of five arrays is printed so.)
-/
import Idealize.ShloMosaic.Lib.StableHlo.Run

noncomputable section

namespace Cert.Nary5

open Idealize.ShloMosaic Idealize.ShloMosaic.StableHlo Idealize.SL.Sem

variable {τ : Topo} {sig : RefSig} {Val : EltTy → Type}
variable {x a b c d y : Ref sig .tc}

/-- The result buffer of a five-operand host operation holds its function of the five operands' contents, listed one
    by one. -/
theorem nary5_result
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

/-- The same with the result reference un-indexed, the form a `simp` pass over a line of host operations can use. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) :=
  nary5_result f hxs hy F

end Cert.Nary5

end
-- ==== Proof.Spec.lean ====
/-
  The specification: the result array as one function of the four arguments, over the extended reals.

  With X the hidden states, idx the adapter indices, E the embedding, W the stacked weights:
      H(0, r, k)     = X(r, k)
      H(e + 1, r, k) = X(r, k) if idx(r) = e, else 0                                  (e = 0..3)
      G(r, R) = ((((Σ_k H(0,r,k)·E(R,k)) + Σ_k H(1,r,k)·W(0,R,k)) + Σ_k H(2,r,k)·W(1,R,k)) + Σ_k H(3,r,k)·W(2,R,k))
                  + Σ_k H(4,r,k)·W(3,R,k),
  the five sums over the hidden axis added in this order. Both programs compute exactly this — the same products, the same
  order of the four additions — so no law of the extended reals beyond reading each operation at an index is needed.
-/
import proofs.«147714_j15977278341385_2_alg».proof.KernelIdeal
import Idealize.ShloMosaic.Lib.ValueIdx
import Idealize.ShloMosaic.PureOps.Ideal

noncomputable section

namespace Cert.KernelIdeal.Hand

open Idealize.ShloMosaic Idealize.ShloMosaic.ValueIdx
open Cert.KernelIdeal

/-- The five-slot array's entry (d, r, k) as a function of the hidden states and the adapter indices. -/
def hid (x0 : S512x2048.Idx → EReal) (x3 : S512.Idx → BitVec 32) (d : Fin 5) (r : Fin 512) (k : Fin 2048) : EReal :=
  match d with
  | ⟨0, _⟩ => x0 (ix2 r k)
  | ⟨e + 1, _⟩ => Scalar.select (IntOp.cmpi .eq (x3 (ix1 r)) (BitVec.ofNat 32 e)) (x0 (ix2 r k)) 0

/-- The result's entry (r, R). -/
def Gat (x0 : S512x2048.Idx → EReal) (x1 : S32000x2048.Idx → EReal) (x2 : S4x32000x2048.Idx → EReal) (x3 : S512.Idx → BitVec 32)
    (r : Fin 512) (R : Fin 32000) : EReal :=
  ((((∑ k : Fin 2048, hid x0 x3 0 r k * x1 (ix2 R k))
    + ∑ k : Fin 2048, hid x0 x3 1 r k * x2 (ix3 (0 : Fin 4) R k))
    + ∑ k : Fin 2048, hid x0 x3 2 r k * x2 (ix3 (1 : Fin 4) R k))
    + ∑ k : Fin 2048, hid x0 x3 3 r k * x2 (ix3 (2 : Fin 4) R k))
    + ∑ k : Fin 2048, hid x0 x3 4 r k * x2 (ix3 (3 : Fin 4) R k)

/-- The result array as one function of the four arguments. -/
def G (x0 : S512x2048.Idx → EReal) (x1 : S32000x2048.Idx → EReal) (x2 : S4x32000x2048.Idx → EReal) (x3 : S512.Idx → BitVec 32) :
    S512x32000.Idx → EReal :=
  fun i => Gat x0 x1 x2 x3 ⟨(i 0).val, (i 0).isLt⟩ ⟨(i 1).val, (i 1).isLt⟩

end Cert.KernelIdeal.Hand

end
-- ==== Proof.KernelIdeal.Hidden.lean ====
/-
  The five-slot array H the region stages, as a function of the arguments.

  The host lines before the region compute: the hidden states X in the narrower float format (the identity over the
  extended reals); for each adapter e = 0..3 the array that keeps row r of X where the row's adapter index equals e and is
  zero elsewhere; each of the five given a leading unit axis; and their concatenation along that axis. Read at (d, r, k):
      H(0, r, k)     = X(r, k)
      H(e + 1, r, k) = X(r, k) if index(r) = e, else 0.
  The contents are read in two steps: what the five operands' buffers hold just before the concatenation (one chain of
  host lines each), then the concatenation of those five.
-/
import proofs.«147714_j15977278341385_2_alg».proof.Proof.KernelIdeal.Entry
import proofs.«147714_j15977278341385_2_alg».proof.Proof.LibNary5
import proofs.«147714_j15977278341385_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

open Idealize.ShloMosaic.StableHlo

variable {F : FTy → Type} [FloatOps F]

/-! ## The host lines' term -/

/-- The hidden states in the narrower format. -/
def hcvt (x0 : (⟨S512x2048, .f32⟩ : BufTy).Contents (Elt F)) : (⟨S512x2048, .bf16⟩ : BufTy).Contents (Elt F) :=
  truncf .bf16 x0 bitsLt_bf16_f32

/-- The hidden states with every row whose adapter index is not `e` replaced by zero. -/
def hmask (x0 : (⟨S512x2048, .f32⟩ : BufTy).Contents (Elt F)) (x3 : (⟨S512, .i32⟩ : BufTy).Contents (Elt F)) (e : BitVec 32) :
    (⟨S512x2048, .bf16⟩ : BufTy).Contents (Elt F) :=
  select (broadcastInDim S512x2048 ![0, 1] bcast_S512x1_S512x2048_0_1 (broadcastInDim S512x1 ![0] bcast_S512_S512x1_0
      (cmpi .eq x3 (broadcastInDim S512 ![] bcast_S_S512 (constantI S_ 32 e)))))
    (hcvt x0) (broadcastInDim S512x2048 ![] bcast_S_S512x2048 (constant (F := F) S_ .bf16 0x0000#16))

/-- A [512, 2048] array given a leading unit axis. -/
def lift (y : (⟨S512x2048, .bf16⟩ : BufTy).Contents (Elt F)) : (⟨S1x512x2048, .bf16⟩ : BufTy).Contents (Elt F) :=
  broadcastInDim S1x512x2048 ![1, 2] bcast_S512x2048_S1x512x2048_1_2 y

/-- The five slots. -/
def slots (x0 : (⟨S512x2048, .f32⟩ : BufTy).Contents (Elt F)) (x3 : (⟨S512, .i32⟩ : BufTy).Contents (Elt F)) :
    Fin 5 → (S1x512x2048.Idx → Elt F .bf16) :=
  ![lift (hcvt x0), lift (hmask x0 x3 0#32), lift (hmask x0 x3 1#32), lift (hmask x0 x3 2#32), lift (hmask x0 x3 3#32)]

/-- The five-slot array. -/
def hstack (x0 : (⟨S512x2048, .f32⟩ : BufTy).Contents (Elt F)) (x3 : (⟨S512, .i32⟩ : BufTy).Contents (Elt F)) :
    (⟨S5x512x2048, .bf16⟩ : BufTy).Contents (Elt F) :=
  concatenate S5x512x2048 0 [⟨S1x512x2048, lift (hcvt x0)⟩, ⟨S1x512x2048, lift (hmask x0 x3 0#32)⟩, ⟨S1x512x2048, lift (hmask x0 x3 1#32)⟩,
    ⟨S1x512x2048, lift (hmask x0 x3 2#32)⟩, ⟨S1x512x2048, lift (hmask x0 x3 3#32)⟩]
    concatenates_S1x512x2048_S1x512x2048_S1x512x2048_S1x512x2048_S1x512x2048_S5x512x2048_d0

/-! ## The buffers just before the concatenation -/

/-- The five lines that give each slot its leading unit axis. -/
abbrev liftOps : List (HloOp τ sig (Elt F)) :=
  [ StableHlo.unary main_v0 main_v17 (broadcastInDim S1x512x2048 ![1, 2] bcast_S512x2048_S1x512x2048_1_2 : (⟨S512x2048, .bf16⟩ : BufTy).Contents (Elt F) → (⟨S1x512x2048, .bf16⟩ : BufTy).Contents (Elt F)),
    StableHlo.unary main_v4 main_v18 (broadcastInDim S1x512x2048 ![1, 2] bcast_S512x2048_S1x512x2048_1_2 : (⟨S512x2048, .bf16⟩ : BufTy).Contents (Elt F) → (⟨S1x512x2048, .bf16⟩ : BufTy).Contents (Elt F)),
    StableHlo.unary main_v8 main_v19 (broadcastInDim S1x512x2048 ![1, 2] bcast_S512x2048_S1x512x2048_1_2 : (⟨S512x2048, .bf16⟩ : BufTy).Contents (Elt F) → (⟨S1x512x2048, .bf16⟩ : BufTy).Contents (Elt F)),
    StableHlo.unary main_v12 main_v20 (broadcastInDim S1x512x2048 ![1, 2] bcast_S512x2048_S1x512x2048_1_2 : (⟨S512x2048, .bf16⟩ : BufTy).Contents (Elt F) → (⟨S1x512x2048, .bf16⟩ : BufTy).Contents (Elt F)),
    StableHlo.unary main_v16 main_v21 (broadcastInDim S1x512x2048 ![1, 2] bcast_S512x2048_S1x512x2048_1_2 : (⟨S512x2048, .bf16⟩ : BufTy).Contents (Elt F) → (⟨S1x512x2048, .bf16⟩ : BufTy).Contents (Elt F)) ]

/-- Every host line before the concatenation. -/
abbrev preOps : List (HloOp τ sig (Elt F)) :=
  List.flatten [hostOps0, hostOps0_1, hostOps0_2, hostOps0_3, hostOps0_4, hostOps0_5, hostOps0_6, hostOps0_7] ++ liftOps

/-- The buffers' contents just before the concatenation. -/
abbrev Wpre (m : (ℓ : Loc nD τ sig) → Buf (Elt F) ℓ) (c : Dev nD) : Valuation τ sig (Elt F) :=
  StableHlo.after (preOps (F := F)) (fun b => m (c, b))

set_option maxHeartbeats 1000000 in
/-- Just before the concatenation, operand 0's buffer. -/
theorem pre_slot0 (m : (ℓ : Loc nD τ sig) → Buf (Elt F) ℓ) (c : Dev nD) :
    Wpre m c (Proc.devRef .tc main_v17) = lift (hcvt (m ((c : Thread nD τ).loc main_arg0))) := by
  show StableHlo.after (preOps (F := F)) (fun b => m (c, b)) (Proc.devRef .tc main_v17) = _
  simp only [preOps, liftOps, hostOps0, hostOps0_1, hostOps0_2, hostOps0_3, hostOps0_4, hostOps0_5, hostOps0_6, hostOps0_7,
    List.flatten_cons, List.flatten_nil, List.append_nil, List.cons_append, List.nil_append]
  after_results_simp
  rfl
set_option maxHeartbeats 1000000 in
/-- Just before the concatenation, operand 1's buffer. -/
theorem pre_slot1 (m : (ℓ : Loc nD τ sig) → Buf (Elt F) ℓ) (c : Dev nD) :
    Wpre m c (Proc.devRef .tc main_v18) = lift (hmask (m ((c : Thread nD τ).loc main_arg0)) (m ((c : Thread nD τ).loc main_arg3)) 0#32) := by
  show StableHlo.after (preOps (F := F)) (fun b => m (c, b)) (Proc.devRef .tc main_v18) = _
  simp only [preOps, liftOps, hostOps0, hostOps0_1, hostOps0_2, hostOps0_3, hostOps0_4, hostOps0_5, hostOps0_6, hostOps0_7,
    List.flatten_cons, List.flatten_nil, List.append_nil, List.cons_append, List.nil_append]
  after_results_simp
  rfl
set_option maxHeartbeats 1000000 in
/-- Just before the concatenation, operand 2's buffer. -/
theorem pre_slot2 (m : (ℓ : Loc nD τ sig) → Buf (Elt F) ℓ) (c : Dev nD) :
    Wpre m c (Proc.devRef .tc main_v19) = lift (hmask (m ((c : Thread nD τ).loc main_arg0)) (m ((c : Thread nD τ).loc main_arg3)) 1#32) := by
  show StableHlo.after (preOps (F := F)) (fun b => m (c, b)) (Proc.devRef .tc main_v19) = _
  simp only [preOps, liftOps, hostOps0, hostOps0_1, hostOps0_2, hostOps0_3, hostOps0_4, hostOps0_5, hostOps0_6, hostOps0_7,
    List.flatten_cons, List.flatten_nil, List.append_nil, List.cons_append, List.nil_append]
  after_results_simp
  rfl
set_option maxHeartbeats 1000000 in
/-- Just before the concatenation, operand 3's buffer. -/
theorem pre_slot3 (m : (ℓ : Loc nD τ sig) → Buf (Elt F) ℓ) (c : Dev nD) :
    Wpre m c (Proc.devRef .tc main_v20) = lift (hmask (m ((c : Thread nD τ).loc main_arg0)) (m ((c : Thread nD τ).loc main_arg3)) 2#32) := by
  show StableHlo.after (preOps (F := F)) (fun b => m (c, b)) (Proc.devRef .tc main_v20) = _
  simp only [preOps, liftOps, hostOps0, hostOps0_1, hostOps0_2, hostOps0_3, hostOps0_4, hostOps0_5, hostOps0_6, hostOps0_7,
    List.flatten_cons, List.flatten_nil, List.append_nil, List.cons_append, List.nil_append]
  after_results_simp
  rfl
set_option maxHeartbeats 1000000 in
/-- Just before the concatenation, operand 4's buffer. -/
theorem pre_slot4 (m : (ℓ : Loc nD τ sig) → Buf (Elt F) ℓ) (c : Dev nD) :
    Wpre m c (Proc.devRef .tc main_v21) = lift (hmask (m ((c : Thread nD τ).loc main_arg0)) (m ((c : Thread nD τ).loc main_arg3)) 3#32) := by
  show StableHlo.after (preOps (F := F)) (fun b => m (c, b)) (Proc.devRef .tc main_v21) = _
  simp only [preOps, liftOps, hostOps0, hostOps0_1, hostOps0_2, hostOps0_3, hostOps0_4, hostOps0_5, hostOps0_6, hostOps0_7,
    List.flatten_cons, List.flatten_nil, List.append_nil, List.cons_append, List.nil_append]
  after_results_simp
  rfl

/-- The region's entry contents are the concatenation line applied to the contents just before it. -/
theorem V_split (m : (ℓ : Loc nD τ sig) → Buf (Elt F) ℓ) (c : Dev nD) :
    V m c main_v22 = (StableHlo.nary ![main_v17, main_v18, main_v19, main_v20, main_v21] main_v22 (fun u => concatenate S5x512x2048 0 [⟨S1x512x2048, u 0⟩, ⟨S1x512x2048, u 1⟩, ⟨S1x512x2048, u 2⟩, ⟨S1x512x2048, u 3⟩, ⟨S1x512x2048, u 4⟩] concatenates_S1x512x2048_S1x512x2048_S1x512x2048_S1x512x2048_S1x512x2048_S5x512x2048_d0)).result (Wpre m c) (Proc.devRef .tc main_v22) := by
  show StableHlo.after (List.flatten (prefixOps (F := F))) (fun b => m (c, b)) (Proc.devRef .tc main_v22) = _
  simp only [prefixOps, preOps, liftOps, hostOps0_8, List.flatten_cons, List.flatten_nil, List.append_nil, List.cons_append, List.nil_append,
    List.append_assoc, after_cons, after_nil]
  rfl

/-- At the region's entry the staged array's buffer holds the five-slot array of the launch contents of arguments 0 and 3. -/
theorem V_H (m : (ℓ : Loc nD τ sig) → Buf (Elt F) ℓ) (c : Dev nD) :
    V m c main_v22 = hstack (m ((c : Thread nD τ).loc main_arg0)) (m ((c : Thread nD τ).loc main_arg3)) := by
  rw [V_split, Cert.Nary5.nary5_result, pre_slot0, pre_slot1, pre_slot2, pre_slot3, pre_slot4]
  rfl

/-! ## Read at an index, over the extended reals -/

theorem lift_apply (y : (⟨S512x2048, .bf16⟩ : BufTy).Contents (Elt F)) (u : Fin 1) (r : Fin 512) (k : Fin 2048) :
    lift y (ix3 u r k) = y (ix2 r k) := by
  unfold lift
  exact broadcastInDim_apply _ bcast_S512x2048_S1x512x2048_1_2 y (ix3 u r k) (ix2 r k) (fun a => match a with
    | ⟨0, _⟩ => by show r.val = if (512 : Nat) = 1 then 0 else r.val; rw [if_neg (by decide)]
    | ⟨1, _⟩ => by show k.val = if (2048 : Nat) = 1 then 0 else k.val; rw [if_neg (by decide)])

/-- The mask bit at (r, k): whether row r's adapter index is `e`. -/
theorem maskbit_apply (x3 : (⟨S512, .i32⟩ : BufTy).Contents (Elt F)) (e : BitVec 32) (r : Fin 512) (k : Fin 2048) :
    (broadcastInDim S512x2048 ![0, 1] bcast_S512x1_S512x2048_0_1 (broadcastInDim S512x1 ![0] bcast_S512_S512x1_0
      (cmpi .eq x3 (broadcastInDim S512 ![] bcast_S_S512 (constantI S_ 32 e))))) (ix2 r k)
      = IntOp.cmpi .eq (x3 (ix1 r)) e := by
  rw [broadcastInDim_apply _ bcast_S512x1_S512x2048_0_1 _ (ix2 r k) (ix2 r (0 : Fin 1)) (fun a => match a with
    | ⟨0, _⟩ => by show r.val = if (512 : Nat) = 1 then 0 else r.val; rw [if_neg (by decide)]
    | ⟨1, _⟩ => by show 0 = if (1 : Nat) = 1 then 0 else k.val; rw [if_pos rfl])]
  rw [broadcastInDim_apply _ bcast_S512_S512x1_0 _ (ix2 r (0 : Fin 1)) (ix1 r) (fun a => match a with
    | ⟨0, _⟩ => by show r.val = if (512 : Nat) = 1 then 0 else r.val; rw [if_neg (by decide)])]
  show IntOp.cmpi .eq (x3 (ix1 r)) (broadcastInDim S512 ![] bcast_S_S512 (constantI S_ 32 e) (ix1 r)) = _
  rw [broadcastInDim_apply _ bcast_S_S512 _ (ix1 r) (fun a => a.elim0) (fun a => a.elim0)]
  rfl

theorem hmask_apply (x0 : S512x2048.Idx → EReal) (x3 : S512.Idx → BitVec 32) (e : BitVec 32) (r : Fin 512) (k : Fin 2048) :
    hmask (F := Ideal) x0 x3 e (ix2 r k) = Scalar.select (IntOp.cmpi .eq (x3 (ix1 r)) e) (x0 (ix2 r k)) 0 := by
  unfold hmask
  rw [select_apply, maskbit_apply (F := Ideal)]
  show Scalar.select _ (x0 (ix2 r k)) (broadcastInDim S512x2048 ![] bcast_S_S512x2048 (constant (F := Ideal) S_ .bf16 0x0000#16) (ix2 r k)) = _
  rw [broadcastInDim_apply _ bcast_S_S512x2048 _ (ix2 r k) (fun a => a.elim0) (fun a => a.elim0)]
  show Scalar.select _ _ (Ideal.ofBits .bf16 0x0000#16) = _
  rw [Ideal.ofBits_zero_bf16]

/-- The staged array read at (d, r, k). -/
theorem hstack_apply (x0 : S512x2048.Idx → EReal) (x3 : S512.Idx → BitVec 32) (d : Fin 5) (r : Fin 512) (k : Fin 2048) :
    hstack (F := Ideal) x0 x3 (ix3 d r k) = hid x0 x3 d r k := by
  have hc := concatenate_ofFn_unit_apply (t := S5x512x2048) (s₁ := S1x512x2048) (0 : Fin 3) (slots (F := Ideal) x0 x3)
    concatenates_S1x512x2048_S1x512x2048_S1x512x2048_S1x512x2048_S1x512x2048_S5x512x2048_d0 rfl rfl (ix3 d r k) d rfl (ix3 (0 : Fin 1) r k)
    (fun b hb => match b with
      | ⟨0, _⟩ => absurd rfl hb
      | ⟨1, _⟩ => rfl
      | ⟨2, _⟩ => rfl)
  refine (show hstack (F := Ideal) x0 x3 (ix3 d r k) = _ from hc).trans ?_
  match d with
  | ⟨0, _⟩ => exact (lift_apply (F := Ideal) _ 0 r k)
  | ⟨1, _⟩ => exact (lift_apply (F := Ideal) _ 0 r k).trans (hmask_apply x0 x3 _ r k)
  | ⟨2, _⟩ => exact (lift_apply (F := Ideal) _ 0 r k).trans (hmask_apply x0 x3 _ r k)
  | ⟨3, _⟩ => exact (lift_apply (F := Ideal) _ 0 r k).trans (hmask_apply x0 x3 _ r k)
  | ⟨4, _⟩ => exact (lift_apply (F := Ideal) _ 0 r k).trans (hmask_apply x0 x3 _ r k)

end Cert.KernelIdeal.Hand

end
-- ==== Proof.KernelIdeal.Tile.lean ====
/-
  The result, and one vocabulary tile of it.

  The specification: with H the five-slot array (slot 0 the hidden states X, slot e + 1 the rows of X whose adapter
  index is e, zero elsewhere), E the embedding and W the stacked weights,
      G(r, R) = ((((Σ_k H(0,r,k)·E(R,k)) + Σ_k H(1,r,k)·W(0,R,k)) + Σ_k H(2,r,k)·W(1,R,k)) + Σ_k H(3,r,k)·W(2,R,k))
                  + Σ_k H(4,r,k)·W(3,R,k),
  the five sums added in this order.
  The kernel: over the five points t − 4 .. t of tile v = t / 5 the accumulator takes the first sum, then adds the other
  four one per point, each factor read through its window's block; at the last point the output buffer is a copy. So
  the output buffer there, at (r, j), is G(r, 640·v + j).
-/
import proofs.«147714_j15977278341385_2_alg».proof.Proof.KernelIdeal.Blocks
import proofs.«147714_j15977278341385_2_alg».proof.Proof.KernelIdeal.Payload
import proofs.«147714_j15977278341385_2_alg».proof.Proof.KernelIdeal.Hidden

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

open Idealize.ShloMosaic.Pipeline (Dat)

/-! ## One tile -/

variable (m : (ℓ : Loc nD τ sig) → Buf (Elt Ideal) ℓ)

/-- The arguments' launch contents on core `c`. -/
abbrev a0 (c : Dev nD) : S512x2048.Idx → EReal := m ((c : Thread nD τ).loc main_arg0)
abbrev a1 (c : Dev nD) : S32000x2048.Idx → EReal := m ((c : Thread nD τ).loc main_arg1)
abbrev a2 (c : Dev nD) : S4x32000x2048.Idx → EReal := m ((c : Thread nD τ).loc main_arg2)
abbrev a3 (c : Dev nD) : S512.Idx → BitVec 32 := m ((c : Thread nD τ).loc main_arg3)

/-- The factor the body takes from the staged array at point t: H(d, r, k) with d = t mod 5. -/
theorem hfac (c : Dev nD) (t : Fin cfg0.N) (d : Fin 5) (hd : d.val = t.val % 5) (r : Fin 512) (k : Fin 2048) :
    slotOf (grid0.coords t) (iblk m c 0 t) (ix3 (0 : Fin 1) r k) = hid (a0 m c) (a3 m c) d r k := by
  refine (slot_apply t (iblk m c 0 t) d hd r k).trans ?_
  refine (iblk0_apply m c t d r k).trans ?_
  rw [V_H]
  exact hstack_apply _ _ d r k

/-- The embedding factor at point t. -/
theorem efac (c : Dev nD) (t : Fin cfg0.N) (j : Fin 640) (k : Fin 2048) (R : Fin 32000) (hR : R.val = 640 * (t.val / 5) + j.val) :
    (iblk m c 1 t : S640x2048.Idx → Elt Ideal .f32) (ix2 j k) = a1 m c (ix2 R k) :=
  (iblk1_apply m c t j k R hR).trans (congrFun (V_main_arg1 m c) _)

/-- The weight factor at point t. -/
theorem wfac (c : Dev nD) (t : Fin cfg0.N) (j : Fin 640) (k : Fin 2048) (e : Fin 4) (he : e.val = t.val % 5 - 1)
    (R : Fin 32000) (hR : R.val = 640 * (t.val / 5) + j.val) :
    (iblk m c 2 t : S1x640x2048.Idx → Elt Ideal .f32) (ix3 (0 : Fin 1) j k) = a2 m c (ix3 e R k) :=
  (iblk2_apply m c t j k e he R hR).trans (congrFun (V_main_arg2 m c) _)

/-- After a point with d = 0 the accumulator holds the first sum. -/
theorem first_step (c : Dev nD) (t : Fin cfg0.N) (h0 : t.val % 5 = 0) (r : Fin 512) (j : Fin 640)
    (R : Fin 32000) (hR : R.val = 640 * (t.val / 5) + j.val) :
    (stateAt m c t.val t.isLt).2 (ix2 r j) = ∑ k : Fin 2048, hid (a0 m c) (a3 m c) 0 r k * a1 m c (ix2 R k) := by
  rw [stateAt_first m c t h0]
  dsimp only
  unfold accFirstAt
  rw [accFirst_eq]
  refine (first_apply _ _ r j).trans ?_
  refine Finset.sum_congr rfl fun k _ => ?_
  exact congrArg₂ (· * ·) (hfac m c t 0 (by rw [h0]; rfl) r k) (efac m c t j k R hR)

/-- After a point with 0 < d < 4 the accumulator holds what it held plus that point's sum. -/
theorem middle_step (c : Dev nD) (t : Fin cfg0.N) (h0 : ¬ t.val % 5 = 0) (h4 : ¬ t.val % 5 = 4) (r : Fin 512) (j : Fin 640)
    (d : Fin 5) (hd : d.val = t.val % 5) (e : Fin 4) (he : e.val = t.val % 5 - 1)
    (R : Fin 32000) (hR : R.val = 640 * (t.val / 5) + j.val) :
    (stateAt m c t.val t.isLt).2 (ix2 r j)
      = prevAcc m c t (ix2 r j) + ∑ k : Fin 2048, hid (a0 m c) (a3 m c) d r k * a2 m c (ix3 e R k) := by
  rw [stateAt_middle m c t h0 h4]
  dsimp only
  unfold accMiddleAt
  rw [accMiddle_eq]
  refine (later_apply _ _ _ r j).trans ?_
  refine congrArg (prevAcc m c t (ix2 r j) + ·) ?_
  refine Finset.sum_congr rfl fun k _ => ?_
  exact congrArg₂ (· * ·) (hfac m c t d hd r k) (wfac m c t j k e he R hR)

/-- After a point with d = 4 the output window's buffer holds what the accumulator held plus the last sum. -/
theorem last_step (c : Dev nD) (t : Fin cfg0.N) (h4 : t.val % 5 = 4) (r : Fin 512) (j : Fin 640)
    (R : Fin 32000) (hR : R.val = 640 * (t.val / 5) + j.val) :
    (stateAt m c t.val t.isLt).1 (ix2 r j)
      = prevAcc m c t (ix2 r j) + ∑ k : Fin 2048, hid (a0 m c) (a3 m c) 4 r k * a2 m c (ix3 (3 : Fin 4) R k) := by
  rw [stateAt_last m c t h4]
  dsimp only
  unfold outLastAt
  rw [outLast_eq]
  refine (later_apply _ _ _ r j).trans ?_
  refine congrArg (prevAcc m c t (ix2 r j) + ·) ?_
  refine Finset.sum_congr rfl fun k _ => ?_
  exact congrArg₂ (· * ·) (hfac m c t 4 (by rw [h4]; rfl) r k) (wfac m c t j k 3 (by rw [h4]; rfl) R hR)

/-- The tile: at the last of a tile's five points the output window's buffer holds the specification's entries. -/
theorem tile_out (c : Dev nD) (t : Fin cfg0.N) (h4 : t.val % 5 = 4) (r : Fin 512) (j : Fin 640)
    (R : Fin 32000) (hR : R.val = 640 * (t.val / 5) + j.val) :
    (stateAt m c t.val t.isLt).1 (ix2 r j) = Gat (a0 m c) (a1 m c) (a2 m c) (a3 m c) r R := by
  have hN : t.val < 250 := lt_of_lt_of_eq t.isLt (show cfg0.N = 250 from N_0)
  have hlt : ∀ n, n ≤ t.val → n < cfg0.N := fun n hn => lt_of_le_of_lt hn t.isLt
  have e3 := middle_step m c ⟨t.val - 1, hlt _ (Nat.sub_le _ _)⟩ (by show ¬ (t.val - 1) % 5 = 0; omega) (by show ¬ (t.val - 1) % 5 = 4; omega) r j
    3 (by show 3 = (t.val - 1) % 5; omega) 2 (by show 2 = (t.val - 1) % 5 - 1; omega) R (by show R.val = 640 * ((t.val - 1) / 5) + j.val; omega)
  have e2 := middle_step m c ⟨t.val - 1 - 1, hlt _ (by omega)⟩ (by show ¬ (t.val - 1 - 1) % 5 = 0; omega) (by show ¬ (t.val - 1 - 1) % 5 = 4; omega) r j
    2 (by show 2 = (t.val - 1 - 1) % 5; omega) 1 (by show 1 = (t.val - 1 - 1) % 5 - 1; omega) R (by show R.val = 640 * ((t.val - 1 - 1) / 5) + j.val; omega)
  have e1 := middle_step m c ⟨t.val - 1 - 1 - 1, hlt _ (by omega)⟩ (by show ¬ (t.val - 1 - 1 - 1) % 5 = 0; omega) (by show ¬ (t.val - 1 - 1 - 1) % 5 = 4; omega) r j
    1 (by show 1 = (t.val - 1 - 1 - 1) % 5; omega) 0 (by show 0 = (t.val - 1 - 1 - 1) % 5 - 1; omega) R (by show R.val = 640 * ((t.val - 1 - 1 - 1) / 5) + j.val; omega)
  have e0 := first_step m c ⟨t.val - 1 - 1 - 1 - 1, hlt _ (by omega)⟩ (by show (t.val - 1 - 1 - 1 - 1) % 5 = 0; omega) r j
    R (by show R.val = 640 * ((t.val - 1 - 1 - 1 - 1) / 5) + j.val; omega)
  rw [last_step m c t h4 r j R hR]
  unfold Gat
  refine congrArg (· + _) ?_
  refine e3.trans ?_
  refine congrArg (· + _) ?_
  refine e2.trans ?_
  refine congrArg (· + _) ?_
  refine e1.trans ?_
  refine congrArg (· + _) ?_
  exact e0

end Cert.KernelIdeal.Hand

end
-- ==== Proof.KernelIdeal.Final.lean ====
/-
  From tiles to the array. The output window is written back exactly at the points with d = 4; the block written at
  t = 5·v + 4 is columns 640·v .. 640·v + 639 of every row, and by the tile lemma it holds the specification there. Every
  column lies in exactly one such block (v = column / 640), so after the run the result array is the specification
  everywhere. The run is then restated with the result array named and the four arguments as launched.
-/
import proofs.«147714_j15977278341385_2_alg».proof.Proof.KernelIdeal.Tile

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

open Idealize.ShloMosaic.Pipeline (Dat)

variable (m : (ℓ : Loc nD τ sig) → Buf (Elt Ideal) ℓ) (ρ : Dev nD → PrngReg)

/-- The output buffer's entry `y` at the last point of a tile is the specification at the entry `i` of the result
    array with the same row and with column 640·v + (y's column). -/
theorem tile_entry (c : Dev nD) (t : Fin cfg0.N) (h4 : t.val % 5 = 4) (y : S512x640.Idx) (i : S512x32000.Idx)
    (hi0 : (i 0).val = (y 0).val) (hi1 : (i 1).val = 640 * (t.val / 5) + (y 1).val) :
    (stateAt m c t.val t.isLt).1 y = G (a0 m c) (a1 m c) (a2 m c) (a3 m c) i := by
  obtain ⟨r, j, rfl⟩ : ∃ (r : Fin 512) (j : Fin 640), y = ix2 r j := ⟨y 0, y 1, eq_ix2 y⟩
  rw [tile_out m c t h4 r j ⟨(i 1).val, (i 1).isLt⟩ hi1]
  unfold G
  congr 1
  exact Fin.ext hi0.symm

/-- What a write-back writes is the block of the specification. -/
theorem flushed_eq (c : Dev nD) (t : Fin cfg0.N) (hf : (cfg0.win 3).flush t = true) :
    (dats m 0 c).flushed 3 t = ((cfg0.win 3).blk t).view.read (Elt Ideal) (G (a0 m c) (a1 m c) (a2 m c) (a3 m c)) := by
  have h4 : t.val % 5 = 4 := (flush0_3 t).mp hf
  show (cfg0.win 3).cut (grid0.coords t) ((dats m 0 c).after 3 t) = _
  rw [after3]
  funext y
  rw [View.read_apply]
  exact tile_entry m c t h4 y _
    (by show win0_3.index t 0 * 512 + 1 * (y 0).val = (y 0).val; rw [(index3 t).1]; omega)
    (by show win0_3.index t 1 * 640 + 1 * (y 1).val = 640 * (t.val / 5) + (y 1).val; rw [(index3 t).2]; omega)

/-- Every entry of the result array lies in the block written back at the last point of its column's tile. -/
theorem covered (i : S512x32000.Idx) :
    ∃ t : Fin cfg0.N, (cfg0.win 3).flush t = true ∧ i ∈ ((cfg0.win 3).blk t).view.set := by
  have h0 : (i 0).val < 512 := (i 0).isLt
  have h1 : (i 1).val < 32000 := (i 1).isLt
  have hN : cfg0.N = 250 := N_0
  let t : Fin cfg0.N := ⟨5 * ((i 1).val / 640) + 4, by rw [hN]; omega⟩
  have ht : t.val = 5 * ((i 1).val / 640) + 4 := rfl
  refine ⟨t, (flush0_3 t).mpr (by rw [ht]; omega), ?_⟩
  show i ∈ ((View.whole main_v23).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(index3 t).1]; omega
  | ⟨1, _⟩ =>
    show win0_3.index t 1 * 640 ≤ (i 1).val ∧ (i 1).val < win0_3.index t 1 * 640 + 640
    rw [(index3 t).2, ht]; omega

/-- After the run the result array is the specification of the arguments' launch contents. -/
theorem final (c : Dev nD) : (dats m 0 c).arrAt 3 cfg0.N = G (a0 m c) (a1 m c) (a2 m c) (a3 m c) :=
  (dats m 0 c).arrAt_eq_of_cover 3 (G (a0 m c) (a1 m c) (a2 m c) (a3 m c)) (flushed_eq m c) covered

/-- The run, read: every weakly fair execution terminates with the result array at the specification and the four
    arguments as launched. -/
theorem run : θ_run defs (onTc (τ := τ) (main (F := Ideal))) ⟨m, fun _ => 0, ρ⟩ fun r => ∀ c : Dev nD,
      r.2.mem ((c.tc : Thread nD τ).loc main_v23) = G (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Hand

end
-- ==== Proof.RefSide.lean ====
/-
  The reference computes the specification.

  Its five products are host dot_generals over the hidden axis whose right operand is a transposed matrix: at (r, R)
  each is Σ_k L(r, k) · M(R, k), with L the hidden states (masked for adapter e by a select on idx = e against a zero
  splat) and M the embedding or the e-th slice of the stacked weights (slice, drop the unit axis, transpose). The four
  additions are in the specification's order. Each stage is read at an index by the generated lemmas; what is
  written here identifies the composed index maps with plain coordinates.
-/
import proofs.«147714_j15977278341385_2_alg».proof.Proof.Spec
import proofs.«147714_j15977278341385_2_alg».proof.Proof.Gen.ReferenceIdeal.Read
import Idealize.ShloMosaic.Lib.ValueIdx
import Idealize.ShloMosaic.PureOps.Ideal.Laws

set_option maxRecDepth 16384

noncomputable section

namespace Cert.ReferenceIdeal.Hand

open Idealize.ShloMosaic Idealize.ShloMosaic.ValueIdx
open Cert.ReferenceIdeal Cert.ReferenceIdeal.Read
open Cert.KernelIdeal.Hand (hid Gat G)

/-- The reference's masked hidden states for adapter 0, at (r, k). -/
theorem masked0_apply (x0 : S512x2048.Idx → EReal) (x3 : S512.Idx → BitVec 32) (r : Fin 512) (k : Fin 2048) :
    val_main_v5 (F := Ideal) x0 x3 (ix2 r k) = hid x0 x3 1 r k := by
  rw [val_main_v5_apply, val_main_call0_v1_apply, val_main_v4_apply, val_main_v3_apply, val_main_v2_apply, val_main_c_apply,
    val_main_call0_v2_apply, val_main_call0_v0_apply, val_main_cst_apply]
  have hi : idx_main_v4 (idx_main_call0_v1 (ix2 r k)) = ix1 r := funext fun a => match a with | ⟨0, _⟩ => rfl
  rw [hi]
  show Scalar.select (IntOp.cmpi .eq (x3 (ix1 r)) 0#32) (x0 (ix2 r k)) (Ideal.ofBits .f32 0x00000000#32) = _
  rw [Ideal.ofBits_zero_f32]
  rfl
/-- The reference's masked hidden states for adapter 1, at (r, k). -/
theorem masked1_apply (x0 : S512x2048.Idx → EReal) (x3 : S512.Idx → BitVec 32) (r : Fin 512) (k : Fin 2048) :
    val_main_v14 (F := Ideal) x0 x3 (ix2 r k) = hid x0 x3 2 r k := by
  rw [val_main_v14_apply, val_main_call1_v1_apply, val_main_v13_apply, val_main_v12_apply, val_main_v11_apply, val_main_c_0_apply,
    val_main_call1_v2_apply, val_main_call1_v0_apply, val_main_cst_1_apply]
  have hi : idx_main_v13 (idx_main_call1_v1 (ix2 r k)) = ix1 r := funext fun a => match a with | ⟨0, _⟩ => rfl
  rw [hi]
  show Scalar.select (IntOp.cmpi .eq (x3 (ix1 r)) 1#32) (x0 (ix2 r k)) (Ideal.ofBits .f32 0x00000000#32) = _
  rw [Ideal.ofBits_zero_f32]
  rfl
/-- The reference's masked hidden states for adapter 2, at (r, k). -/
theorem masked2_apply (x0 : S512x2048.Idx → EReal) (x3 : S512.Idx → BitVec 32) (r : Fin 512) (k : Fin 2048) :
    val_main_v23 (F := Ideal) x0 x3 (ix2 r k) = hid x0 x3 3 r k := by
  rw [val_main_v23_apply, val_main_call2_v1_apply, val_main_v22_apply, val_main_v21_apply, val_main_v20_apply, val_main_c_2_apply,
    val_main_call2_v2_apply, val_main_call2_v0_apply, val_main_cst_3_apply]
  have hi : idx_main_v22 (idx_main_call2_v1 (ix2 r k)) = ix1 r := funext fun a => match a with | ⟨0, _⟩ => rfl
  rw [hi]
  show Scalar.select (IntOp.cmpi .eq (x3 (ix1 r)) 2#32) (x0 (ix2 r k)) (Ideal.ofBits .f32 0x00000000#32) = _
  rw [Ideal.ofBits_zero_f32]
  rfl
/-- The reference's masked hidden states for adapter 3, at (r, k). -/
theorem masked3_apply (x0 : S512x2048.Idx → EReal) (x3 : S512.Idx → BitVec 32) (r : Fin 512) (k : Fin 2048) :
    val_main_v32 (F := Ideal) x0 x3 (ix2 r k) = hid x0 x3 4 r k := by
  rw [val_main_v32_apply, val_main_call3_v1_apply, val_main_v31_apply, val_main_v30_apply, val_main_v29_apply, val_main_c_4_apply,
    val_main_call3_v2_apply, val_main_call3_v0_apply, val_main_cst_5_apply]
  have hi : idx_main_v31 (idx_main_call3_v1 (ix2 r k)) = ix1 r := funext fun a => match a with | ⟨0, _⟩ => rfl
  rw [hi]
  show Scalar.select (IntOp.cmpi .eq (x3 (ix1 r)) 3#32) (x0 (ix2 r k)) (Ideal.ofBits .f32 0x00000000#32) = _
  rw [Ideal.ofBits_zero_f32]
  rfl

/-- The reference's transposed embedding at (k, R): E(R, k). -/
theorem embed_apply (x1 : S32000x2048.Idx → EReal) (i : S512x32000.Idx) (k : Fin 2048) (R : Fin 32000) (hR : (i 1).val = R.val) :
    val_main_v0 (F := Ideal) x1 (ridx_main_v1 i k) = x1 (ix2 R k) := by
  rw [val_main_v0_apply]
  congr 1
  funext a
  apply Fin.ext
  match a with
  | ⟨0, _⟩ => exact hR
  | ⟨1, _⟩ => rfl

/-- The reference's transposed slice of adapter 0's weights, at (k, R): W(0, R, k). -/
theorem weights0_apply (x2 : S4x32000x2048.Idx → EReal) (i : S512x32000.Idx) (k : Fin 2048) (R : Fin 32000) (hR : (i 1).val = R.val) :
    val_main_v8 (F := Ideal) x2 (ridx_main_v9 i k) = x2 (ix3 (0 : Fin 4) R k) := by
  rw [val_main_v8_apply, val_main_v7_apply, val_main_v6_apply]
  congr 1
  funext a
  apply Fin.ext
  have hk : k.val < 2048 := k.isLt
  have hRR : R.val < 32000 := R.isLt
  match a with
  | ⟨0, _⟩ => rfl
  | ⟨1, _⟩ => show ((i 1).val * 2048 + k.val) / 2048 % 32000 = R.val; omega
  | ⟨2, _⟩ => show ((i 1).val * 2048 + k.val) % 2048 = k.val; omega
/-- The reference's transposed slice of adapter 1's weights, at (k, R): W(1, R, k). -/
theorem weights1_apply (x2 : S4x32000x2048.Idx → EReal) (i : S512x32000.Idx) (k : Fin 2048) (R : Fin 32000) (hR : (i 1).val = R.val) :
    val_main_v17 (F := Ideal) x2 (ridx_main_v18 i k) = x2 (ix3 (1 : Fin 4) R k) := by
  rw [val_main_v17_apply, val_main_v16_apply, val_main_v15_apply]
  congr 1
  funext a
  apply Fin.ext
  have hk : k.val < 2048 := k.isLt
  have hRR : R.val < 32000 := R.isLt
  match a with
  | ⟨0, _⟩ => rfl
  | ⟨1, _⟩ => show ((i 1).val * 2048 + k.val) / 2048 % 32000 = R.val; omega
  | ⟨2, _⟩ => show ((i 1).val * 2048 + k.val) % 2048 = k.val; omega
/-- The reference's transposed slice of adapter 2's weights, at (k, R): W(2, R, k). -/
theorem weights2_apply (x2 : S4x32000x2048.Idx → EReal) (i : S512x32000.Idx) (k : Fin 2048) (R : Fin 32000) (hR : (i 1).val = R.val) :
    val_main_v26 (F := Ideal) x2 (ridx_main_v27 i k) = x2 (ix3 (2 : Fin 4) R k) := by
  rw [val_main_v26_apply, val_main_v25_apply, val_main_v24_apply]
  congr 1
  funext a
  apply Fin.ext
  have hk : k.val < 2048 := k.isLt
  have hRR : R.val < 32000 := R.isLt
  match a with
  | ⟨0, _⟩ => rfl
  | ⟨1, _⟩ => show ((i 1).val * 2048 + k.val) / 2048 % 32000 = R.val; omega
  | ⟨2, _⟩ => show ((i 1).val * 2048 + k.val) % 2048 = k.val; omega
/-- The reference's transposed slice of adapter 3's weights, at (k, R): W(3, R, k). -/
theorem weights3_apply (x2 : S4x32000x2048.Idx → EReal) (i : S512x32000.Idx) (k : Fin 2048) (R : Fin 32000) (hR : (i 1).val = R.val) :
    val_main_v35 (F := Ideal) x2 (ridx_main_v36 i k) = x2 (ix3 (3 : Fin 4) R k) := by
  rw [val_main_v35_apply, val_main_v34_apply, val_main_v33_apply]
  congr 1
  funext a
  apply Fin.ext
  have hk : k.val < 2048 := k.isLt
  have hRR : R.val < 32000 := R.isLt
  match a with
  | ⟨0, _⟩ => rfl
  | ⟨1, _⟩ => show ((i 1).val * 2048 + k.val) / 2048 % 32000 = R.val; omega
  | ⟨2, _⟩ => show ((i 1).val * 2048 + k.val) % 2048 = k.val; omega

/-- A product's left index at (r, ·), k is (r, k). -/
theorem lidx_eq (i : S512x32000.Idx) (k : Fin 2048) (r : Fin 512) (hr : (i 0).val = r.val) :
    lidx_main_v1 i k = ix2 r k := funext fun a => Fin.ext (match a with | ⟨0, _⟩ => hr | ⟨1, _⟩ => rfl)

/-- The reference's result is the specification. -/
theorem ref_eq (x0 : S512x2048.Idx → EReal) (x1 : S32000x2048.Idx → EReal) (x2 : S4x32000x2048.Idx → EReal) (x3 : S512.Idx → BitVec 32) :
    val_main_v37 (F := Ideal) x0 x1 x2 x3 = G x0 x1 x2 x3 := by
  funext i
  rw [val_main_v37_apply, val_main_v28_apply, val_main_v19_apply, val_main_v10_apply, val_main_v1_apply, val_main_v9_apply,
    val_main_v18_apply, val_main_v27_apply, val_main_v36_apply]
  unfold G Gat
  have hl : ∀ k, lidx_main_v1 i k = ix2 (⟨(i 0).val, (i 0).isLt⟩ : Fin 512) k := fun k => lidx_eq i k _ rfl
  refine congrArg₂ (· + ·) (congrArg₂ (· + ·) (congrArg₂ (· + ·) (congrArg₂ (· + ·) ?_ ?_) ?_) ?_) ?_
  · refine Finset.sum_congr rfl fun k _ => congrArg₂ (· * ·) ?_ (embed_apply x1 i k _ rfl)
    rw [hl k]; rfl
  · refine Finset.sum_congr rfl fun k _ => congrArg₂ (· * ·) ?_ (weights0_apply x2 i k _ rfl)
    show val_main_v5 (F := Ideal) x0 x3 (lidx_main_v1 i k) = _
    rw [hl k]; exact masked0_apply x0 x3 _ k
  · refine Finset.sum_congr rfl fun k _ => congrArg₂ (· * ·) ?_ (weights1_apply x2 i k _ rfl)
    show val_main_v14 (F := Ideal) x0 x3 (lidx_main_v1 i k) = _
    rw [hl k]; exact masked1_apply x0 x3 _ k
  · refine Finset.sum_congr rfl fun k _ => congrArg₂ (· * ·) ?_ (weights2_apply x2 i k _ rfl)
    show val_main_v23 (F := Ideal) x0 x3 (lidx_main_v1 i k) = _
    rw [hl k]; exact masked2_apply x0 x3 _ k
  · refine Finset.sum_congr rfl fun k _ => congrArg₂ (· * ·) ?_ (weights3_apply x2 i k _ rfl)
    show val_main_v32 (F := Ideal) x0 x3 (lidx_main_v1 i k) = _
    rw [hl k]; exact masked3_apply x0 x3 _ k

end Cert.ReferenceIdeal.Hand

end
-- ==== Proof.lean ====
/-
  Dense vocabulary logits plus per-token adapter deltas: the kernel against its jnp reference.

  For hidden states X : [512, 2048], embedding E : [32000, 2048], stacked adapter weights W : [4, 32000, 2048] and adapter
  indices idx : [512], both programs compute, over the extended reals,
      out(r, R) = ((((Σ_k X(r,k)·E(R,k)) + Σ_k X₀(r,k)·W(0,R,k)) + Σ_k X₁(r,k)·W(1,R,k)) + Σ_k X₂(r,k)·W(2,R,k))
                    + Σ_k X₃(r,k)·W(3,R,k),
  where X_e keeps row r of X when idx(r) = e and is zero otherwise. The reference does it with five whole products and
  four additions. The kernel stacks X, X₀ .. X₃ into one array, walks a 50 × 5 grid (vocabulary tile v, slot d), keeps a
  [512, 640] accumulator across the five points of a tile — the first product at d = 0, one more added at each later
  d — and writes the tile out at d = 4. The additions come in the same order on both sides and the products are the same
  sums over the hidden axis, so the two results agree entry by entry; no finiteness of the inputs is used.

  The frames (each program runs to the end, faults nowhere, leaves its arguments as launched): for the kernel, at both
  instances, from the run of its pipelined region point by point (modules Kernel/ and KernelIdeal/: Entry, the three
  case runs, Frame); for the reference from its straight-line run. The idealization rewrote nothing.
-/
import proofs.«147714_j15977278341385_2_alg».proof.Defs
import proofs.«147714_j15977278341385_2_alg».proof.Proof.Gen.Kernel
import proofs.«147714_j15977278341385_2_alg».proof.Proof.Gen.KernelIdeal
import proofs.«147714_j15977278341385_2_alg».proof.Proof.Gen.ReferenceIdeal
import proofs.«147714_j15977278341385_2_alg».proof.Proof.Gen.ReferenceIdeal.Run
import proofs.«147714_j15977278341385_2_alg».proof.Proof.Gen.ReferenceIdeal.Read
import proofs.«147714_j15977278341385_2_alg».proof.Proof.Gen.Pre_finite_inputs
import proofs.«147714_j15977278341385_2_alg».proof.Proof.Kernel.Frame
import proofs.«147714_j15977278341385_2_alg».proof.Proof.KernelIdeal.Final
import proofs.«147714_j15977278341385_2_alg».proof.Proof.RefSide

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Hand.frame m ρ

/-- So does the kernel read over the extended reals. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the specification of its arguments, the reference's at the
    specification of arguments that agree with them: the same array. -/
theorem algebraic : Cert.algebraic_KernelIdeal_ReferenceIdeal := by
  intro m ρ m' ρ' _ hagree
  refine ⟨fun c => Cert.KernelIdeal.Hand.G (Cert.KernelIdeal.Hand.a0 m c) (Cert.KernelIdeal.Hand.a1 m c)
    (Cert.KernelIdeal.Hand.a2 m c) (Cert.KernelIdeal.Hand.a3 m c), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.Hand.ref_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
